-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x512 : Shape := ⟨2, ![8192, 512]⟩
abbrev S512x512 : Shape := ⟨2, ![512, 512]⟩
abbrev S_ : Shape := ⟨0, ![]⟩
abbrev S8192 : Shape := ⟨1, ![8192]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512x512 : S_.BroadcastsInDim S512x512 (![] : Fin 0 → Fin S512x512.rank)
  reducesTo_S512x512_S_d0_1 : S512x512.ReducesTo [0, 1] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg0 : FVec F S8192x8192 .f32) (main_v13 : IVec S_ 1) (main_v14 : IVec S8192x8192 32) (main_v15 : IVec S8192x8192 32) (main_v16 : IVec S8192x8192 32) : IVec S_ 1 :=
  let main_v17 : IVec S8192x8192 32 := addi main_v14 main_v16
  let main_v18 : IVec S8192x8192 1 := cmpi .eq main_v17 main_v15
  let main_v19 : FVec F S8192x8192 .f32 := uitofp .f32 main_v18
  let main_v20 : FVec F S8192x8192 .f32 := addf main_arg0 main_v19
  let main_cst_5 : FVec F S_ .f32 := constant S_ .f32 0x00000000#32
  let main_v21 : FVec F S8192 .f32 := (fun x v => Host.reduceAdd x v reducesTo_S8192x8192_S8192_d1 h_S_) main_v20 main_cst_5
  let main_cst_6 : FVec F S_ .f32 := constant S_ .f32 0x00000000#32
  let main_v22 : FVec F S8192 .f32 := broadcastInDim S8192 ![] bcast_S_S8192 main_cst_6
  let main_v23 : IVec S8192 1 := cmpf .ogt main_v21 main_v22
  let main_c_7 : IVec S_ 1 := constantI S_ 1 1#1
  let main_v24 : IVec S_ 1 := (fun x v => Host.reduce IntOp.andi x v reducesTo_S8192_S_d0 h_S_) main_v23 main_c_7
  let main_v25 : IVec S_ 1 := andi main_v13 main_v24
  main_v25

def fn {F : FTy → Type} [FloatOps F] (main_arg0 : FVec F S8192x8192 .f32) (main_arg1 : FVec F S8192x512 .f32) (main_arg2 : FVec F S512x512 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : IVec S8192x8192 32 := iotaInDim S8192x8192 32 0
  let main_v15 : IVec S8192x8192 32 := iotaInDim S8192x8192 32 1
  let main_c_4 : IVec S_ 32 := constantI S_ 32 0#32
  let main_v16 : IVec S8192x8192 32 := broadcastInDim S8192x8192 ![] bcast_S_S8192x8192 main_c_4
  fn_part1 (F := F) main_arg0 main_v13 main_v14 main_v15 main_v16
-- ==== Kernel.lean ====
abbrev S8192x8192 : Shape := ⟨2, ![8192, 8192]⟩
abbrev S8192x512 : Shape := ⟨2, ![8192, 512]⟩
abbrev S512x512 : Shape := ⟨2, ![512, 512]⟩
abbrev S8192x1 : Shape := ⟨2, ![8192, 1]⟩
abbrev S256x8192 : Shape := ⟨2, ![256, 8192]⟩
abbrev S256x512 : Shape := ⟨2, ![256, 512]⟩
abbrev S256x1 : Shape := ⟨2, ![256, 1]⟩
abbrev S256 : Shape := ⟨1, ![256]⟩
abbrev S512x1 : Shape := ⟨2, ![512, 1]⟩

abbrev nBuf : Space → Nat
  | .hbm => 7
  | .vmem => 17
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S512x512, .f32⟩
  | .hbm, ⟨3, _⟩ => ⟨S8192x1, .f32⟩
  | .hbm, ⟨4, _⟩ => ⟨S8192x512, .bf16⟩
  | .hbm, ⟨5, _⟩ => ⟨S512x512, .bf16⟩
  | .hbm, ⟨6, _⟩ => ⟨S8192x512, .f32⟩
  | .local _ .vmem, ⟨0, _⟩ => ⟨S256x8192, .f32⟩
  | .local _ .vmem, ⟨1, _⟩ => ⟨S256x8192, .f32⟩
  | .local _ .vmem, ⟨2, _⟩ => ⟨S256x512, .f32⟩
  | .local _ .vmem, ⟨3, _⟩ => ⟨S256x512, .f32⟩
  | .local _ .vmem, ⟨4, _⟩ => ⟨S256x1, .f32⟩
  | .local _ .vmem, ⟨5, _⟩ => ⟨S256x1, .f32⟩
  | .local _ .vmem, ⟨6, _⟩ => ⟨S256x512, .bf16⟩
  | .local _ .vmem, ⟨7, _⟩ => ⟨S256x512, .bf16⟩
  | .local _ .vmem, ⟨8, _⟩ => ⟨S512x512, .f32⟩
  | .local _ .vmem, ⟨9, _⟩ => ⟨S512x512, .f32⟩
  | .local _ .vmem, ⟨10, _⟩ => ⟨S8192x512, .bf16⟩
  | .local _ .vmem, ⟨11, _⟩ => ⟨S512x512, .bf16⟩
  | .local _ .vmem, ⟨12, _⟩ => ⟨S512x1, .f32⟩
  | .local _ .vmem, ⟨13, _⟩ => ⟨S512x1, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 16], ![false, false]⟩

def k1_mult1 (i : grid1.Coords) : BitVec 32 :=
  let arg1 : BitVec 32 := BitVec.ofNat 32 (i 1).val
  let c512_i32 : BitVec 32 := 512#32
  let v5 : BitVec 32 := Scalar.muli arg1 c512_i32
  v5
def k1_off1 (i : grid1.Coords) : Fin 2 → Nat :=
  let arg1 : BitVec 32 := BitVec.ofNat 32 (i 1).val
  let c512_i32 : BitVec 32 := 512#32
  let v5 : BitVec 32 := Scalar.muli arg1 c512_i32
  let v6 : BitVec 32 := v5
  let v7 : Index := Scalar.indexCast v6
  let c0_2 : Index := 0#32
  ![v7.toNat, 0]
def k1_cond2 (i : grid1.Coords) : BitVec 1 :=
  let arg0 : BitVec 32 := BitVec.ofNat 32 (i 0).val
  let arg1 : BitVec 32 := BitVec.ofNat 32 (i 1).val
  let v16 : BitVec 1 := Scalar.cmpi .eq arg0 arg1
  let v17 : BitVec 32 := Scalar.extui v16
  let c0_i32_7 : BitVec 32 := 0#32
  let v18 : BitVec 1 := Scalar.cmpi .ne v17 c0_i32_7
  v18

def k1_mult2 (i : grid1.Coords) : BitVec 32 :=
  let arg0 : BitVec 32 := BitVec.ofNat 32 (i 0).val
  let c512_i32_9 : BitVec 32 := 512#32
  let v22 : BitVec 32 := Scalar.muli arg0 c512_i32_9
  v22
def k1_off2 (i : grid1.Coords) : Fin 2 → Nat :=
  let arg0 : BitVec 32 := BitVec.ofNat 32 (i 0).val
  let c512_i32_9 : BitVec 32 := 512#32
  let v22 : BitVec 32 := Scalar.muli arg0 c512_i32_9
  let v23 : BitVec 32 := v22
  let v24 : Index := Scalar.indexCast v23
  let c0_10 : Index := 0#32
  ![v24.toNat, 0]
def k1_cond3 (i : grid1.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_8 : BitVec 32 := 0#32
  let v21 : BitVec 1 := Scalar.cmpi .ne v20 c0_i32_8
  v21

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  inb_S256x512_S256x512_0_0 : ∀ a, (![0, 0] : Fin 2 → Nat) a + S256x512.size a ≤ S256x512.size a
  h_S256x512 : 0 < S256x512.numel
  broadcasts_S256x1_S256x512 : S256x1.Broadcasts S256x512
  bitsLt_bf16_f32 : FTy.bits .bf16 < FTy.bits .f32
  packedbf16_S256x512_S256x512_0_0 : (Rect.unit (s := S256x512) ![0, 0] S256x512.size inb_S256x512_S256x512_0_0).PackedRows (EltTy.packing .bf16)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S8192x512.size a
  hwx0_1 : ∀ i : grid0.Coords, EltTy.bits .f32 = 32 ∨ (Rect.block (s := S8192x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S8192x512.size a
  hwx0_3 : ∀ i : grid0.Coords, EltTy.bits .bf16 = 32 ∨ (Rect.block (s := S8192x512) S256x512.size (cc0_transform_3 i) (hinb0_3 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S512x512.size a ≤ S8192x512.size a
  k1_mult2_dvd : ∀ i : grid1.Coords, ∀ (k1_h2 : k1_cond2 i = 1#1), 512 ∣ (k1_mult2 i).toNat
  k1_off2_inb : ∀ i : grid1.Coords, ∀ (k1_h2 : k1_cond2 i = 1#1), ∀ a, (k1_off2 i) a + S512x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x8192.size a
  hwx1_0 : ∀ i : grid1.Coords, EltTy.bits .f32 = 32 ∨ (Rect.block (s := S8192x8192) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .bf16 = 32 ∨ (Rect.block (s := S8192x512) S8192x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S8192x1.size a
  hwx1_3 : ∀ i : grid1.Coords, EltTy.bits .f32 = 32 ∨ (Rect.block (s := S8192x1) S512x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S8192x512.size a
  hwx1_4 : ∀ i : grid1.Coords, EltTy.bits .f32 = 32 ∨ (Rect.block (s := S8192x512) S512x512.size (cc1_transform_4 i) (hinb1_4 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S512x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond3 i == 1#1) | ⟨_ + 5, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x512 : Shape := ⟨2, ![8192, 512]⟩
abbrev S512x512 : Shape := ⟨2, ![512, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S512x512, .f32⟩
  | .hbm, ⟨3, _⟩ => ⟨S8192x8192, .i32⟩
  | .hbm, ⟨4, _⟩ => ⟨S8192x8192, .i32⟩
  | .hbm, ⟨5, _⟩ => ⟨S_, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_cst : Ref sig .tc := ⟨.hbm, 25, rfl⟩
abbrev main_call0_v0 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x512 : S_.BroadcastsInDim S8192x512 (![] : Fin 0 → Fin S8192x512.rank)
  dot_S8192x8192_S8192x512_S8192x512_1_0_0_1_n_n_wf : DotDims.WF S8192x8192 S8192x512 S8192x512 [1] [0] [0] [1] [] []
  dot_S8192x512_S512x512_S8192x512_1_0_0_1_n_n_wf : DotDims.WF S8192x512 S512x512 S8192x512 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.BitsRegion0.lean ====
/-
  The first kernel region (the degree kernel), at any float instance, for the buffer contents V the
  region is entered with. At grid point t the body reads a block of 256 whole rows of the adjacency
  array and the same 256 rows of the feature array; it leaves in the first output block the column
  of inverse square roots of (row sum + 1), and in the second the feature rows each scaled by its
  row's entry of that column. Both output blocks are stored whole by one store each, so what a
  block holds after the body is a function of the two input blocks alone.
-/
import proofs.«158732_j16363825397897_2_alg».proof.Proof.Gen.Kernel.Launch
import proofs.«158732_j16363825397897_2_alg».proof.Proof.Gen.Kernel.Skeleton
import proofs.«158732_j16363825397897_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose
    array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body reads and writes through. -/
abbrev r0_a : Rect S256x8192 := Rect.unit (s := S256x8192) ![0, 0] S256x8192.size inb_S256x8192_S256x8192_0_0
abbrev r0_h : Rect S256x512 := Rect.unit (s := S256x512) ![0, 0] S256x512.size inb_S256x512_S256x512_0_0
abbrev r0_d : Rect S256x1 := Rect.unit (s := S256x1) ![0, 0] S256x1.size inb_S256x1_S256x1_0_0

/-- The column block after the body: one store of the inverse square roots of the adjacency block's row sums plus one. -/
def out0_2 (x0 : Vec F S256x8192 .f32) : Vec F S256x1 .f32 :=
  View.canon [⟨r0_d, k0_pay1 (View.ld x0 r0_a)⟩]

/-- The scaled feature block after the body: one store of the feature block times the spread column. -/
def out0_3 (x0 : Vec F S256x8192 .f32) (x1 : Vec F S256x512 .f32) : Vec F S256x512 .bf16 :=
  View.canon [⟨r0_h, k0_pay2 (View.ld x0 r0_a) (View.ld x1 r0_h)⟩]

theorem cover0_2 (p0 : Vec F S256x1 .f32) (y : S256x1.Idx) :
    ∃ pc ∈ ([⟨r0_d, p0⟩] : List (View.Piece (Elt F) S256x1 .f32)), y ∈ pc.1.set :=
  View.cover_of_tiled [⟨r0_d, p0⟩] S256x1.size (by rfl) y

theorem cover0_3 (p0 : Vec F S256x512 .bf16) (y : S256x512.Idx) :
    ∃ pc ∈ ([⟨r0_h, p0⟩] : List (View.Piece (Elt F) S256x512 .bf16)), y ∈ pc.1.set :=
  View.cover_of_tiled [⟨r0_h, p0⟩] S256x512.size (by rfl) y

set_option maxHeartbeats 4000000 in
/-- The body on whole staging memrefs: the inputs' at their contents, the outputs' at anything; it ends with the
    inputs as they were and each output at its one store. -/
theorem sound_kernel0 (c : Dev nD) (E : Set ℕ) (i : grid0.Coords)
    (arg1 : Memref sig .tc .vmem S256x8192 .f32) (harg1 : arg1.IsWhole) (arg2 : Memref sig .tc .vmem S256x512 .f32) (harg2 : arg2.IsWhole)
    (arg3 : Memref sig .tc .vmem S256x1 .f32) (harg3 : arg3.IsWhole) (arg4 : Memref sig .tc .vmem S256x512 .bf16) (harg4 : arg4.IsWhole)
    (x0 : Vec F S256x8192 .f32) (x1 : Vec F S256x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x0 x1)) -∗ K ⟨⟩))
      ⊢ wp frame (wpE (defs₀ (F := F)) Variants.none c none) E (cc0__deg_kernel i arg1 harg1 arg2 harg2 arg3 harg3 arg4 harg4) K := by
  simp only [cc0__deg_kernel_eq_skeleton]; unfold cc0__deg_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-- The proof data of the first pipeline on core c: the arrays as the region finds them; after the body at point t
    each input's buffer at its block and each output's at its store over the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsStep1.lean ====
/-
  The second kernel region (the aggregate-and-project kernel), at any float instance: what its body does at one
  grid point (i, j) of the 16 × 16 grid. The body keeps a 512 × 512 accumulator in a scratch buffer across the
  points of one row of the grid: it is reset to zero at j = 0, the product of the adjacency tile (i, j) with rows
  512 j … 512 j + 511 of the scaled features is added at every point, the rows 512 i … 512 i + 511 of the scaled
  features themselves are added at the diagonal point j = i, and at j = 15 the accumulator, each row scaled by its
  entry of the inverse-square-root column, is multiplied by the weights and clamped at zero into the output block;
  at every other point the output block is left as it was found.
-/
import proofs.«158732_j16363825397897_2_alg».proof.Proof.Gen.Kernel.Launch
import proofs.«158732_j16363825397897_2_alg».proof.Proof.Gen.Kernel.Skeleton
import proofs.«158732_j16363825397897_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three branch conditions of the body, from the grid coordinates: j = 0, i = j, j = 15. -/
abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1
abbrev cond1_2 (i : grid1.Coords) : Prop := k1_cond3 i = 1#1

/-- The whole-block rectangles the body reads and writes through. -/
abbrev rW : Rect S512x512 := Rect.unit (s := S512x512) ![0, 0] S512x512.size inb_S512x512_S512x512_0_0
abbrev rD : Rect S512x1 := Rect.unit (s := S512x1) ![0, 0] S512x1.size inb_S512x1_S512x1_0_0
theorem hz2 : (![0, 0] : Fin 2 → ℕ) = fun _ => 0 := by
  funext a; match a with | ⟨0, _⟩ => rfl | ⟨1, _⟩ => rfl

/-- A load of the whole block after a list of stores whose last one filled the whole block reads that store's payload. -/
theorem readCov_cons_full {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl, View.ld_unit_zero rfl]

/-- The accumulator after the body at point i, from the adjacency tile, the scaled features and what the
    accumulator held before: reset at j = 0, the tile's product added, the diagonal rows added at i = j. -/
def accNew (i : grid1.Coords) (xa : Vec F S512x512 .f32) (xh : Vec F S8192x512 .bf16) (prev : Vec F S512x512 .f32) : Vec F S512x512 .f32 :=
  if h : cond1_1 i then
    k1_pay3 (View.ld xh (Rect.unit (s := S8192x512) (k1_off2 i) S512x512.size (k1_off2_inb i h)))
      (k1_pay2 (View.ld xa rW) (View.ld xh (Rect.unit (s := S8192x512) (k1_off1 i) S512x512.size (k1_off1_inb i))) (if cond1_0 i then k1_pay1 else prev))
  else
    k1_pay2 (View.ld xa rW) (View.ld xh (Rect.unit (s := S8192x512) (k1_off1 i) S512x512.size (k1_off1_inb i))) (if cond1_0 i then k1_pay1 else prev)

/-- At j = 0 the accumulator is reset: what it held before does not matter. -/
theorem accNew_reset (i : grid1.Coords) (h : cond1_0 i) (xa : Vec F S512x512 .f32) (xh : Vec F S8192x512 .bf16) (p p' : Vec F S512x512 .f32) :
    accNew i xa xh p = accNew i xa xh p' := by
  unfold accNew; simp only [if_pos h]

/-- The output block stored at j = 15, from the column block, the accumulator and the weights. -/
def outNew (xd : Vec F S512x1 .f32) (acc : Vec F S512x512 .f32) (xw : Vec F S512x512 .bf16) : Vec F S512x512 .f32 :=
  k1_pay4 (View.ld xd rD) acc (View.ld xw rW)

end Cert.Kernel.Hand

end
-- ==== Proof.BitsBody1.lean ====
/-
  The second kernel's body run symbolically at one grid point, in each of its branch cases: with the inputs'
  staging buffers at their blocks and the scratch at what it held, it ends with the inputs as they were, the
  scratch at the advanced accumulator, and the output block stored (at j = 15) or handed back as found.
-/
import proofs.«158732_j16363825397897_2_alg».proof.Proof.Gen.Kernel.Launch
import proofs.«158732_j16363825397897_2_alg».proof.Proof.Gen.Kernel.Skeleton
import proofs.«158732_j16363825397897_2_alg».proof.Proof.Gen.Kernel.Points
import proofs.«158732_j16363825397897_2_alg».proof.Proof.BitsStep1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a point with j = 15: the inputs as they were, the output block stored, the accumulator advanced. -/
theorem sound_kernel1_live (c : Dev nD) (E : Set ℕ) (i : grid1.Coords)
    (arg2 : Memref sig .tc .vmem S512x512 .f32) (harg2 : arg2.IsWhole) (arg3 : Memref sig .tc .vmem S8192x512 .bf16) (harg3 : arg3.IsWhole)
    (arg4 : Memref sig .tc .vmem S512x512 .bf16) (harg4 : arg4.IsWhole) (arg5 : Memref sig .tc .vmem S512x1 .f32) (harg5 : arg5.IsWhole)
    (arg6 : Memref sig .tc .vmem S512x512 .f32) (harg6 : arg6.IsWhole) (arg7 : Memref sig .tc .vmem S512x512 .f32) (harg7 : arg7.IsWhole)
    (hc2 : cond1_2 i)
    (x0 : Vec F S512x512 .f32) (x1 : Vec F S8192x512 .bf16) (x2 : Vec F S512x512 .bf16) (x3 : Vec F S512x1 .f32) (prev : Vec F S512x512 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare prev
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare (outNew x3 (accNew i x0 x1 prev) x2)
            ∗ owns (c : Thread nD τ) arg7 fullShare (accNew i x0 x1 prev)) -∗ K ⟨⟩))
      ⊢ wp frame (wpE (defs₀ (F := F)) Variants.none c none) E (cc1__gc_kernel i arg2 harg2 arg3 harg3 arg4 harg4 arg5 harg5 arg6 harg6 arg7 harg7) K := by
  simp only [cc1__gc_kernel_eq_skeleton]; unfold cc1__gc_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  by_cases hc0 : cond1_0 i <;> by_cases hc1 : cond1_1 i
  · sl_exec (disch := first | exact hc0 | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      sl_unfold_words
      rw [View.read_writes_eq_canon _ _ _ (fun y => ⟨_, List.mem_cons.mpr (Or.inl rfl), View.mem_set_unit_zero hz2 inb_S512x512_S512x512_0_0 y⟩), View.canon_cons_unit_zero hz2]
      unfold outNew accNew
      simp only [dif_pos hc1, if_pos hc0, View.readAt_eq_ld, readCov_cons_full (S := S512x512) _ hz2, View.ld_unit_zero (S := S512x512) hz2]
      try rfl
    iexists _; isplitr
    swap; · iexact H5
    ipureintro
    sl_unfold_words
    rw [View.read_writes_eq_canon _ _ _ (fun y => ⟨_, List.mem_cons.mpr (Or.inl rfl), View.mem_set_unit_zero hz2 inb_S512x512_S512x512_0_0 y⟩), View.canon_cons_unit_zero hz2]
    unfold accNew
    simp only [dif_pos hc1, if_pos hc0, View.readAt_eq_ld, readCov_cons_full (S := S512x512) _ hz2, View.ld_unit_zero (S := S512x512) hz2]
    try rfl
  · sl_exec (disch := first | exact hc0 | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      sl_unfold_words
      rw [View.read_writes_eq_canon _ _ _ (fun y => ⟨_, List.mem_cons.mpr (Or.inl rfl), View.mem_set_unit_zero hz2 inb_S512x512_S512x512_0_0 y⟩), View.canon_cons_unit_zero hz2]
      unfold outNew accNew
      simp only [dif_neg hc1, if_pos hc0, View.readAt_eq_ld, readCov_cons_full (S := S512x512) _ hz2, View.ld_unit_zero (S := S512x512) hz2]
      try rfl
    iexists _; isplitr
    swap; · iexact H5
    ipureintro
    sl_unfold_words
    rw [View.read_writes_eq_canon _ _ _ (fun y => ⟨_, List.mem_cons.mpr (Or.inl rfl), View.mem_set_unit_zero hz2 inb_S512x512_S512x512_0_0 y⟩), View.canon_cons_unit_zero hz2]
    unfold accNew
    simp only [dif_neg hc1, if_pos hc0, View.readAt_eq_ld, readCov_cons_full (S := S512x512) _ hz2, View.ld_unit_zero (S := S512x512) hz2]
    try rfl
  · sl_exec (disch := first | exact hc0 | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      sl_unfold_words
      rw [View.read_writes_eq_canon _ _ _ (fun y => ⟨_, List.mem_cons.mpr (Or.inl rfl), View.mem_set_unit_zero hz2 inb_S512x512_S512x512_0_0 y⟩), View.canon_cons_unit_zero hz2]
      unfold outNew accNew
      simp only [dif_pos hc1, if_neg hc0, View.readAt_eq_ld, readCov_cons_full (S := S512x512) _ hz2, View.ld_unit_zero (S := S512x512) hz2]
      try rfl
    iexists _; isplitr
    swap; · iexact H5
    ipureintro
    sl_unfold_words
    rw [View.read_writes_eq_canon _ _ _ (fun y => ⟨_, List.mem_cons.mpr (Or.inl rfl), View.mem_set_unit_zero hz2 inb_S512x512_S512x512_0_0 y⟩), View.canon_cons_unit_zero hz2]
    unfold accNew
    simp only [dif_pos hc1, if_neg hc0, View.readAt_eq_ld, readCov_cons_full (S := S512x512) _ hz2, View.ld_unit_zero (S := S512x512) hz2]
    try rfl
  · sl_exec (disch := first | exact hc0 | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      sl_unfold_words
      rw [View.read_writes_eq_canon _ _ _ (fun y => ⟨_, List.mem_cons.mpr (Or.inl rfl), View.mem_set_unit_zero hz2 inb_S512x512_S512x512_0_0 y⟩), View.canon_cons_unit_zero hz2]
      unfold outNew accNew
      simp only [dif_neg hc1, if_neg hc0, View.readAt_eq_ld, readCov_cons_full (S := S512x512) _ hz2, View.ld_unit_zero (S := S512x512) hz2]
      try rfl
    iexists _; isplitr
    swap; · iexact H5
    ipureintro
    sl_unfold_words
    rw [View.read_writes_eq_canon _ _ _ (fun y => ⟨_, List.mem_cons.mpr (Or.inl rfl), View.mem_set_unit_zero hz2 inb_S512x512_S512x512_0_0 y⟩), View.canon_cons_unit_zero hz2]
    unfold accNew
    simp only [dif_neg hc1, if_neg hc0, View.readAt_eq_ld, readCov_cons_full (S := S512x512) _ hz2, View.ld_unit_zero (S := S512x512) hz2]
    try rfl

set_option maxHeartbeats 8000000 in
/-- The body at a point with j < 15: the inputs and the output block as they were, the accumulator advanced. -/
theorem sound_kernel1_idle (c : Dev nD) (E : Set ℕ) (i : grid1.Coords)
    (arg2 : Memref sig .tc .vmem S512x512 .f32) (harg2 : arg2.IsWhole) (arg3 : Memref sig .tc .vmem S8192x512 .bf16) (harg3 : arg3.IsWhole)
    (arg4 : Memref sig .tc .vmem S512x512 .bf16) (harg4 : arg4.IsWhole) (arg5 : Memref sig .tc .vmem S512x1 .f32) (harg5 : arg5.IsWhole)
    (arg6 : Memref sig .tc .vmem S512x512 .f32) (harg6 : arg6.IsWhole) (arg7 : Memref sig .tc .vmem S512x512 .f32) (harg7 : arg7.IsWhole)
    (hc2 : ¬cond1_2 i)
    (x0 : Vec F S512x512 .f32) (x1 : Vec F S8192x512 .bf16) (x2 : Vec F S512x512 .bf16) (x3 : Vec F S512x1 .f32) (xo : Vec F S512x512 .f32) (prev : Vec F S512x512 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xo ∗ owns (c : Thread nD τ) arg7 fullShare prev
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare xo
            ∗ owns (c : Thread nD τ) arg7 fullShare (accNew i x0 x1 prev)) -∗ K ⟨⟩))
      ⊢ wp frame (wpE (defs₀ (F := F)) Variants.none c none) E (cc1__gc_kernel i arg2 harg2 arg3 harg3 arg4 harg4 arg5 harg5 arg6 harg6 arg7 harg7) K := by
  simp only [cc1__gc_kernel_eq_skeleton]; unfold cc1__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  by_cases hc0 : cond1_0 i <;> by_cases hc1 : cond1_1 i
  · sl_exec (disch := first | exact hc0 | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    sl_unfold_words
    rw [View.read_writes_eq_canon _ _ _ (fun y => ⟨_, List.mem_cons.mpr (Or.inl rfl), View.mem_set_unit_zero hz2 inb_S512x512_S512x512_0_0 y⟩), View.canon_cons_unit_zero hz2]
    unfold accNew
    simp only [dif_pos hc1, if_pos hc0, View.readAt_eq_ld, readCov_cons_full (S := S512x512) _ hz2, View.ld_unit_zero (S := S512x512) hz2]
    try rfl
  · sl_exec (disch := first | exact hc0 | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    sl_unfold_words
    rw [View.read_writes_eq_canon _ _ _ (fun y => ⟨_, List.mem_cons.mpr (Or.inl rfl), View.mem_set_unit_zero hz2 inb_S512x512_S512x512_0_0 y⟩), View.canon_cons_unit_zero hz2]
    unfold accNew
    simp only [dif_neg hc1, if_pos hc0, View.readAt_eq_ld, readCov_cons_full (S := S512x512) _ hz2, View.ld_unit_zero (S := S512x512) hz2]
    try rfl
  · sl_exec (disch := first | exact hc0 | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    sl_unfold_words
    rw [View.read_writes_eq_canon _ _ _ (fun y => ⟨_, List.mem_cons.mpr (Or.inl rfl), View.mem_set_unit_zero hz2 inb_S512x512_S512x512_0_0 y⟩), View.canon_cons_unit_zero hz2]
    unfold accNew
    simp only [dif_pos hc1, if_neg hc0, View.readAt_eq_ld, readCov_cons_full (S := S512x512) _ hz2, View.ld_unit_zero (S := S512x512) hz2]
    try rfl
  · sl_exec (disch := first | exact hc0 | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    sl_unfold_words
    rw [View.read_writes_eq_canon _ _ _ (fun y => ⟨_, List.mem_cons.mpr (Or.inl rfl), View.mem_set_unit_zero hz2 inb_S512x512_S512x512_0_0 y⟩), View.canon_cons_unit_zero hz2]
    unfold accNew
    simp only [dif_neg hc1, if_neg hc0, View.readAt_eq_ld, readCov_cons_full (S := S512x512) _ hz2, View.ld_unit_zero (S := S512x512) hz2]
    try rfl

end Cert.Kernel.Hand

end
-- ==== Proof.BitsAcc1.lean ====
/-
  The second kernel region's accumulator followed over the grid: window blocks read off the arrays the region is
  entered with, and accAt, what the scratch accumulator holds after the body at position n of the grid (the fold of
  the body's update over the points of the current grid row up to n).
-/
import proofs.«158732_j16363825397897_2_alg».proof.Proof.Gen.Kernel.Launch
import proofs.«158732_j16363825397897_2_alg».proof.Proof.Gen.Kernel.Skeleton
import proofs.«158732_j16363825397897_2_alg».proof.Proof.Gen.Kernel.Points
import proofs.«158732_j16363825397897_2_alg».proof.Proof.BitsStep1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATION: what the scratch holds after the body at position n. -/
def accAt (c : Dev nD) : (n : ℕ) → n < cfg1.N → Vec F S512x512 .f32
  | 0, hn => accNew (grid1.coords ⟨0, hn⟩) (iblk1 V c 0 ⟨0, hn⟩) (iblk1 V c 1 ⟨0, hn⟩) k1_pay1
  | n + 1, hn => accNew (grid1.coords ⟨n + 1, hn⟩) (iblk1 V c 0 ⟨n + 1, hn⟩) (iblk1 V c 1 ⟨n + 1, hn⟩) (accAt c n (Nat.lt_of_succ_lt hn))

theorem accAt_zero (c : Dev nD) (t : Fin cfg1.N) (hz : t.val = 0) :
    accAt V c t.val t.isLt = accNew (grid1.coords t) (iblk1 V c 0 t) (iblk1 V c 1 t) k1_pay1 := by
  obtain ⟨n, hn⟩ := t
  cases n with
  | zero => rfl
  | succ n => exact absurd hz (Nat.succ_ne_zero n)

theorem accAt_pos (c : Dev nD) (t : Fin cfg1.N) (hz : t.val ≠ 0) :
    accAt V c t.val t.isLt = accNew (grid1.coords t) (iblk1 V c 0 t) (iblk1 V c 1 t) (accAt V c (t.val - 1) (Nat.lt_of_le_of_lt (Nat.sub_le _ _) t.isLt)) := by
  obtain ⟨n, hn⟩ := t
  cases n with
  | zero => exact absurd rfl hz
  | succ n => rfl

end Cert.Kernel.Hand

end
-- ==== Proof.BitsRegion1.lean ====
/-
  The second kernel region as a pipeline: its proof data. The accumulator the body keeps in its scratch buffer is
  followed point by point (accAt: after point n it holds the fold of the body's update over the points of the
  current grid row up to n), the region's invariant holds the scratch at that value between points, and the output
  block after the body at a point with j = 15 is the projection of that accumulator.
-/
import proofs.«158732_j16363825397897_2_alg».proof.Proof.Gen.Kernel.Launch
import proofs.«158732_j16363825397897_2_alg».proof.Proof.Gen.Kernel.Skeleton
import proofs.«158732_j16363825397897_2_alg».proof.Proof.Gen.Kernel.Points
import proofs.«158732_j16363825397897_2_alg».proof.Proof.BitsBody1
import proofs.«158732_j16363825397897_2_alg».proof.Proof.BitsAcc1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The branch conditions in closed form over the grid: j = 0 at the points ≡ 0 (mod 16), j = 15 at the points ≡ 15. -/
theorem hcond1_0 : ∀ t : Fin cfg1.N, cond1_0 (grid1.coords t) ↔ t.val % 16 = 0 :=
  (by decide +kernel : ∀ t : Fin grid1.N, cond1_0 (grid1.coords t) ↔ t.val % 16 = 0)
theorem hcond1_2 : ∀ t : Fin cfg1.N, cond1_2 (grid1.coords t) ↔ t.val % 16 = 15 :=
  (by decide +kernel : ∀ t : Fin grid1.N, cond1_2 (grid1.coords t) ↔ t.val % 16 = 15)

/-- The inputs are never idle; the output is idle, and not written back, exactly at the points with j < 15. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem idleAt1_4 : ∀ t : Fin cfg1.N, ¬cond1_2 (grid1.coords t) → cfg1.idle 4 (grid1.coords t) = true := by decide +kernel
theorem noFlush1_4 : ∀ t : Fin cfg1.N, ¬cond1_2 (grid1.coords t) → (cfg1.win 4).flush t = false := by decide +kernel
theorem liveAt1_4 : ∀ t : Fin cfg1.N, cond1_2 (grid1.coords t) → cfg1.idle 4 (grid1.coords t) = false := by decide +kernel

/-- Each window's current staging memref at point t, as the pipeline passes it, and its wholeness. -/
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .f32 := win1_4.stage (cfg1.slots t 4)
abbrev hs1_4 (t : Fin cfg1.N) : (ms1_4 t).IsWhole := hstage1_4 ((cfg1.slots t 4).cast nbuf1_4)
/-- The scratch accumulator: a whole scoped buffer of the kernel's own. -/
abbrev scM : Memref sig .tc .vmem S512x512 .f32 := Memref.whole cc1_scratch0

/-- The other kernel's staging buffers, each whole at some contents, with the scratch's assertion S at the end:
    the scoped buffers that are no staging buffer of this pipeline. -/
def restChain (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- The class invariant with the scratch as a memref owned at some contents. -/
theorem PhiA1_eq (c : Dev nD) :
    (Pipeline.ΦA spec1 c : sProp 𝕄)
      = iprop(restChain c (iprop(∃ d, owns (c : Thread nD τ) scM fullShare d)) ∗ (∃ r, prngReg c r)) := by
  unfold Pipeline.ΦA restChain; rw [scopedRest1_eq]; simp only [scM, owns_whole]; try rfl

/-- The region invariant before position n: before the first point the class's (the scratch at anything);
    afterwards the scratch at what the point before left in it. -/
def PhiS (c : Dev nD) : (n : ℕ) → n ≤ cfg1.N → sProp 𝕄
  | 0, _ => Pipeline.ΦA spec1 c
  | n + 1, hn => iprop(restChain c (owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restChain c (owns (c : Thread nD τ) scM fullShare (accAt V c n hn)) ∗ (∃ r, prngReg c r)) := rfl

theorem PhiS_pos (c : Dev nD) (n : ℕ) (h : n ≤ cfg1.N) (hz : n ≠ 0) :
    PhiS V c n h = iprop(restChain c (owns (c : Thread nD τ) scM fullShare (accAt V c (n - 1) (by omega))) ∗ (∃ r, prngReg c r)) := by
  cases n with
  | zero => exact absurd rfl hz
  | succ n => rfl

/-- The proof data of the second pipeline on core c: the arrays as the region finds them; after the body each
    input's buffer at its block, the output's at the projection of the accumulator; the invariant carrying the
    accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outNew (iblk1 V c 3 t) (accAt V c t.val t.isLt) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = outNew (iblk1 V c 3 t) (accAt V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the invariant hands the body the scratch at what
    the point before left (at anything at the first point, where the body resets it) and takes it back at this
    point's value; at j = 15 the output block is stored, elsewhere it is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  by_cases h2 : cond1_2 (grid1.coords t)
  · rw [show (dat1 V c).leavesExact 4 t = owns (c : Thread nD τ) (ms1_4 t) fullShare ((dat1 V c).after 4 t) from by
        unfold Dat.leavesExact; rw [liveAt1_4 t h2], after1_4]
    by_cases hz : t.val = 0
    · exfalso
      have := (hcond1_2 t).mp h2
      omega
    · rw [PhiS_castSucc V c t, PhiS_pos V c _ _ hz, accAt_pos V c t hz]
      unfold restChain
      iintro ⟨⟨⟨R0, R1, R2, R3, R4, R5, R6, R7, HS⟩, Hg⟩, Ho, ⟨%d0, H0⟩, ⟨%d1, H1⟩, ⟨%d2, H2⟩, ⟨%d3, H3⟩, ⟨%d4, H4⟩⟩
      iapply (sound_kernel1_live c Set.univ (grid1.coords t) _ _ _ _ _ _ _ _ _ _ _ _ h2 (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [R0 R1 R2 R3 R4 R5 R6 R7 HS Hg]
      · isplitr [Hg]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      isplitl [H2]; · iexact H2
      isplitl [H3]; · iexact H3
      iexact H4
  · rw [Dat.leavesExact_idle (dat1 V c) 4 t (idleAt1_4 t h2) (noFlush1_4 t h2)]
    by_cases hz : t.val = 0
    · rw [PhiS_castSucc V c t, PhiS_zero V c _ _ hz, PhiA1_eq, accAt_zero V c t hz]
      unfold restChain
      iintro ⟨⟨⟨R0, R1, R2, R3, R4, R5, R6, R7, ⟨%ds, HS⟩⟩, Hg⟩, Ho, ⟨%d0, H0⟩, ⟨%d1, H1⟩, ⟨%d2, H2⟩, ⟨%d3, H3⟩, ⟨%d4, H4⟩⟩
      rw [accNew_reset (grid1.coords t) ((hcond1_0 t).mpr (by rw [hz])) (iblk1 V c 0 t) (iblk1 V c 1 t) k1_pay1 ds]
      iapply (sound_kernel1_idle c Set.univ (grid1.coords t) _ _ _ _ _ _ _ _ _ _ _ _ h2 (iblk1 V c 0 t) (iblk1 V c 1 t) (iblk1 V c 2 t) (iblk1 V c 3 t) _ ds _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [R0 R1 R2 R3 R4 R5 R6 R7 HS Hg]
      · isplitr [Hg]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz, accAt_pos V c t hz]
      unfold restChain
      iintro ⟨⟨⟨R0, R1, R2, R3, R4, R5, R6, R7, HS⟩, Hg⟩, Ho, ⟨%d0, H0⟩, ⟨%d1, H1⟩, ⟨%d2, H2⟩, ⟨%d3, H3⟩, ⟨%d4, H4⟩⟩
      iapply (sound_kernel1_idle c Set.univ (grid1.coords t) _ _ _ _ _ _ _ _ _ _ _ _ h2 (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [R0 R1 R2 R3 R4 R5 R6 R7 HS Hg]
      · isplitr [Hg]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's value is forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega), PhiA1_eq]
  unfold restChain
  iintro ⟨⟨R0, R1, R2, R3, R4, R5, R6, R7, HS⟩, Hg⟩
  isplitr [Hg]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexists _; iexact HS
  iexact Hg

end Cert.Kernel.Hand

end
-- ==== Proof.BitsRun.lean ====
/-
  The whole program as a run: the first kernel region, the host's conversion of the weights, the second kernel
  region, from the launch memory to the return. The contents of the TensorCore's buffers at each boundary are a
  fold from the launch memory: a region's arrays at what its write-backs leave, a host stretch's results at its
  operations' values, everything else as before. Every weakly fair execution terminates without a fault in a state
  whose unscoped buffers hold the last boundary's contents; no item writes an argument array.
-/
import proofs.«158732_j16363825397897_2_alg».proof.Proof.Gen.Kernel.Launch
import proofs.«158732_j16363825397897_2_alg».proof.Proof.Gen.Kernel.Skeleton
import proofs.«158732_j16363825397897_2_alg».proof.Proof.Gen.Kernel.Points
import proofs.«158732_j16363825397897_2_alg».proof.Proof.BitsRegion0
import proofs.«158732_j16363825397897_2_alg».proof.Proof.BitsRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (the first region's entry). -/
abbrev W0 : Dev nD → Valuation τ sig (Elt F) := fun c b => (s₀ m ρ).mem ((c : Dev nD), b)
abbrev VA : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (VA m ρ) c).arrAt w cfg0.N
theorem W1_arr (c : Dev nD) (w : Fin cfg0.W) :
    W1 m ρ c (Proc.devRef .tc (Pipeline.arrRef spec0 w)) = (dat0 (VA m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VA' : (c : Dev nD) → (b : Ref sig .tc) → Buf (Elt F) ((c : Thread nD τ).loc b) := fun c b => W1 m ρ c b
theorem hF0 (c : Dev nD) (w : Fin cfg0.W) : (dat0 (VA m ρ) c).arrAt w cfg0.N = VA' m ρ c (Pipeline.arrRef spec0 w) :=
  (W1_arr m ρ c w).symm
theorem hrest0 (c : Dev nD) : ∀ b, b ∉ Finset.univ.image (Pipeline.arrRef spec0) → VA' m ρ c b = VA m ρ c b :=
  fun b hb => W1_of_ne m ρ c b fun w e => hb (Finset.mem_image.mpr ⟨w, Finset.mem_univ _, e⟩)

/-- After the host's conversion of the weights (the second region's entry). -/
abbrev W2 : Dev nD → Valuation τ sig (Elt F) := fun c => StableHlo.after hostOps1 (W1 m ρ c)
abbrev VB : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (VB m ρ) c).arrAt w cfg1.N
theorem W3_arr (c : Dev nD) (w : Fin cfg1.W) :
    W3 m ρ c (Proc.devRef .tc (Pipeline.arrRef spec1 w)) = (dat1 (VB m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev VB' : (c : Dev nD) → (b : Ref sig .tc) → Buf (Elt F) ((c : Thread nD τ).loc b) := fun c b => W3 m ρ c b
theorem hF1 (c : Dev nD) (w : Fin cfg1.W) : (dat1 (VB m ρ) c).arrAt w cfg1.N = VB' m ρ c (Pipeline.arrRef spec1 w) :=
  (W3_arr m ρ c w).symm
theorem hrest1 (c : Dev nD) : ∀ b, b ∉ Finset.univ.image (Pipeline.arrRef spec1) → VB' m ρ c b = VB m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (VB m ρ) c).arrAt_in 0 rfl _).trans (A_eq1 (VB m ρ) c 0))
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (VA m ρ) c).arrAt_in 0 rfl _).trans (A_eq0 (VA m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 1).trans (((dat0 (VA m ρ) c).arrAt_in 1 rfl _).trans (A_eq0 (VA m ρ) c 1))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (VA m ρ) c
  | ⟨1, _⟩ => fun c => dat1 (VB m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

theorem HIN0 (c : Dev nD) : Pipeline.ΦA spec0 c ⊢ (pdats m ρ 0 c).Φ 0 := by
  rw [show (pdats m ρ 0 c).Φ 0 = Pipeline.ΦA spec0 c from rfl]
theorem HOUT0 (c : Dev nD) : (pdats m ρ 0 c).Φ (Fin.last _) ⊢ Pipeline.ΦA spec0 c := by
  rw [show (pdats m ρ 0 c).Φ (Fin.last _) = Pipeline.ΦA spec0 c from rfl]
theorem HIN1 (c : Dev nD) : Pipeline.ΦA spec1 c ⊢ (pdats m ρ 1 c).Φ 0 := hin1 (VB m ρ) c
theorem HOUT1 (c : Dev nD) : (pdats m ρ 1 c).Φ (Fin.last _) ⊢ Pipeline.ΦA spec1 c := hout1 (VB m ρ) c

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VA m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) (Val := Elt F) spec0 c) : sProp 𝕄) ⊢ Pipeline.ΦA spec0 c := by
      unfold Pipeline.ΦA
      iintro ⟨Hp, -, Hr⟩
      isplitl [Hr]; · iexact Hr
      iexact Hp
    exact h.trans (HIN0 m ρ c)
  hout c := by
    rw [Pipeline.ownSems0_none]
    have h : Pipeline.ΦA spec0 c ⊢ (iprop((∃ r, prngReg c r) ∗ emp
        ∗ Pipeline.scopedRest (Ix := Unit) (Name := ℕ) (U := UR sig nD τ) (Lvl := ℕ) (Val := Elt F) spec0 c) : sProp 𝕄) := by
      unfold Pipeline.ΦA
      iintro ⟨Hr, Hp⟩
      isplitl [Hp]; · iexact Hp
      isplitr; · iempintro
      iexact Hr
    exact (HOUT0 m ρ c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VA m ρ c) (VA' m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VB m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) spec1 c) : sProp 𝕄) ⊢ Pipeline.ΦA spec1 c := by
      unfold Pipeline.ΦA
      iintro ⟨Hp, -, Hr⟩
      isplitl [Hr]; · iexact Hr
      iexact Hp
    exact h.trans (HIN1 m ρ c)
  hout c := by
    rw [Pipeline.ownSems0_none]
    have h : Pipeline.ΦA spec1 c ⊢ (iprop((∃ r, prngReg c r) ∗ emp
        ∗ Pipeline.scopedRest (Ix := Unit) (Name := ℕ) (U := UR sig nD τ) (Lvl := ℕ) (Val := Elt F) spec1 c) : sProp 𝕄) := by
      unfold Pipeline.ΦA
      iintro ⟨Hr, Hp⟩
      isplitl [Hp]; · iexact Hp
      isplitr; · iempintro
      iexact Hr
    exact (HOUT1 m ρ c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VB m ρ c) (VB' m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of the program terminates without a
    fault, and every final state has each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- THE RESULT: the result array ends at what the second pipeline's write-backs leave in it. -/
theorem run_result : θ_run defs (onTc (τ := τ) (main (F := F))) ⟨m, fun _ => 0, ρ⟩ (fun r => ∀ c : Dev nD,
      r.2.mem ((c.tc : Thread nD τ).loc main_v2) = (dat1 (VB m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (W3_arr m ρ c 4),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.Kernel.Hand

end
-- ==== Proof.IdealRegion0.lean ====
/-
  The first kernel region (the degree kernel), at any float instance, for the buffer contents V the
  region is entered with. At grid point t the body reads a block of 256 whole rows of the adjacency
  array and the same 256 rows of the feature array; it leaves in the first output block the column
  of inverse square roots of (row sum + 1), and in the second the feature rows each scaled by its
  row's entry of that column. Both output blocks are stored whole by one store each, so what a
  block holds after the body is a function of the two input blocks alone.
-/
import proofs.«158732_j16363825397897_2_alg».proof.Proof.Gen.KernelIdeal.Launch
import proofs.«158732_j16363825397897_2_alg».proof.Proof.Gen.KernelIdeal.Skeleton
import proofs.«158732_j16363825397897_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose
    array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body reads and writes through. -/
abbrev r0_a : Rect S256x8192 := Rect.unit (s := S256x8192) ![0, 0] S256x8192.size inb_S256x8192_S256x8192_0_0
abbrev r0_h : Rect S256x512 := Rect.unit (s := S256x512) ![0, 0] S256x512.size inb_S256x512_S256x512_0_0
abbrev r0_d : Rect S256x1 := Rect.unit (s := S256x1) ![0, 0] S256x1.size inb_S256x1_S256x1_0_0

/-- The column block after the body: one store of the inverse square roots of the adjacency block's row sums plus one. -/
def out0_2 (x0 : Vec F S256x8192 .f32) : Vec F S256x1 .f32 :=
  View.canon [⟨r0_d, k0_pay1 (View.ld x0 r0_a)⟩]

/-- The scaled feature block after the body: one store of the feature block times the spread column. -/
def out0_3 (x0 : Vec F S256x8192 .f32) (x1 : Vec F S256x512 .f32) : Vec F S256x512 .bf16 :=
  View.canon [⟨r0_h, k0_pay2 (View.ld x0 r0_a) (View.ld x1 r0_h)⟩]

theorem cover0_2 (p0 : Vec F S256x1 .f32) (y : S256x1.Idx) :
    ∃ pc ∈ ([⟨r0_d, p0⟩] : List (View.Piece (Elt F) S256x1 .f32)), y ∈ pc.1.set :=
  View.cover_of_tiled [⟨r0_d, p0⟩] S256x1.size (by rfl) y

theorem cover0_3 (p0 : Vec F S256x512 .bf16) (y : S256x512.Idx) :
    ∃ pc ∈ ([⟨r0_h, p0⟩] : List (View.Piece (Elt F) S256x512 .bf16)), y ∈ pc.1.set :=
  View.cover_of_tiled [⟨r0_h, p0⟩] S256x512.size (by rfl) y

set_option maxHeartbeats 4000000 in
/-- The body on whole staging memrefs: the inputs' at their contents, the outputs' at anything; it ends with the
    inputs as they were and each output at its one store. -/
theorem sound_kernel0 (c : Dev nD) (E : Set ℕ) (i : grid0.Coords)
    (arg1 : Memref sig .tc .vmem S256x8192 .f32) (harg1 : arg1.IsWhole) (arg2 : Memref sig .tc .vmem S256x512 .f32) (harg2 : arg2.IsWhole)
    (arg3 : Memref sig .tc .vmem S256x1 .f32) (harg3 : arg3.IsWhole) (arg4 : Memref sig .tc .vmem S256x512 .bf16) (harg4 : arg4.IsWhole)
    (x0 : Vec F S256x8192 .f32) (x1 : Vec F S256x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x0 x1)) -∗ K ⟨⟩))
      ⊢ wp frame (wpE (defs₀ (F := F)) Variants.none c none) E (cc0__deg_kernel i arg1 harg1 arg2 harg2 arg3 harg3 arg4 harg4) K := by
  simp only [cc0__deg_kernel_eq_skeleton]; unfold cc0__deg_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-- The proof data of the first pipeline on core c: the arrays as the region finds them; after the body at point t
    each input's buffer at its block and each output's at its store over the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealStep1.lean ====
/-
  The second kernel region (the aggregate-and-project kernel), at any float instance: what its body does at one
  grid point (i, j) of the 16 × 16 grid. The body keeps a 512 × 512 accumulator in a scratch buffer across the
  points of one row of the grid: it is reset to zero at j = 0, the product of the adjacency tile (i, j) with rows
  512 j … 512 j + 511 of the scaled features is added at every point, the rows 512 i … 512 i + 511 of the scaled
  features themselves are added at the diagonal point j = i, and at j = 15 the accumulator, each row scaled by its
  entry of the inverse-square-root column, is multiplied by the weights and clamped at zero into the output block;
  at every other point the output block is left as it was found.
-/
import proofs.«158732_j16363825397897_2_alg».proof.Proof.Gen.KernelIdeal.Launch
import proofs.«158732_j16363825397897_2_alg».proof.Proof.Gen.KernelIdeal.Skeleton
import proofs.«158732_j16363825397897_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three branch conditions of the body, from the grid coordinates: j = 0, i = j, j = 15. -/
abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1
abbrev cond1_2 (i : grid1.Coords) : Prop := k1_cond3 i = 1#1

/-- The whole-block rectangles the body reads and writes through. -/
abbrev rW : Rect S512x512 := Rect.unit (s := S512x512) ![0, 0] S512x512.size inb_S512x512_S512x512_0_0
abbrev rD : Rect S512x1 := Rect.unit (s := S512x1) ![0, 0] S512x1.size inb_S512x1_S512x1_0_0
theorem hz2 : (![0, 0] : Fin 2 → ℕ) = fun _ => 0 := by
  funext a; match a with | ⟨0, _⟩ => rfl | ⟨1, _⟩ => rfl

/-- A load of the whole block after a list of stores whose last one filled the whole block reads that store's payload. -/
theorem readCov_cons_full {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl, View.ld_unit_zero rfl]

/-- The accumulator after the body at point i, from the adjacency tile, the scaled features and what the
    accumulator held before: reset at j = 0, the tile's product added, the diagonal rows added at i = j. -/
def accNew (i : grid1.Coords) (xa : Vec F S512x512 .f32) (xh : Vec F S8192x512 .bf16) (prev : Vec F S512x512 .f32) : Vec F S512x512 .f32 :=
  if h : cond1_1 i then
    k1_pay3 (View.ld xh (Rect.unit (s := S8192x512) (k1_off2 i) S512x512.size (k1_off2_inb i h)))
      (k1_pay2 (View.ld xa rW) (View.ld xh (Rect.unit (s := S8192x512) (k1_off1 i) S512x512.size (k1_off1_inb i))) (if cond1_0 i then k1_pay1 else prev))
  else
    k1_pay2 (View.ld xa rW) (View.ld xh (Rect.unit (s := S8192x512) (k1_off1 i) S512x512.size (k1_off1_inb i))) (if cond1_0 i then k1_pay1 else prev)

/-- At j = 0 the accumulator is reset: what it held before does not matter. -/
theorem accNew_reset (i : grid1.Coords) (h : cond1_0 i) (xa : Vec F S512x512 .f32) (xh : Vec F S8192x512 .bf16) (p p' : Vec F S512x512 .f32) :
    accNew i xa xh p = accNew i xa xh p' := by
  unfold accNew; simp only [if_pos h]

/-- The output block stored at j = 15, from the column block, the accumulator and the weights. -/
def outNew (xd : Vec F S512x1 .f32) (acc : Vec F S512x512 .f32) (xw : Vec F S512x512 .bf16) : Vec F S512x512 .f32 :=
  k1_pay4 (View.ld xd rD) acc (View.ld xw rW)

end Cert.KernelIdeal.Hand

end
-- ==== Proof.IdealBody1.lean ====
/-
  The second kernel's body run symbolically at one grid point, in each of its branch cases: with the inputs'
  staging buffers at their blocks and the scratch at what it held, it ends with the inputs as they were, the
  scratch at the advanced accumulator, and the output block stored (at j = 15) or handed back as found.
-/
import proofs.«158732_j16363825397897_2_alg».proof.Proof.Gen.KernelIdeal.Launch
import proofs.«158732_j16363825397897_2_alg».proof.Proof.Gen.KernelIdeal.Skeleton
import proofs.«158732_j16363825397897_2_alg».proof.Proof.Gen.KernelIdeal.Points
import proofs.«158732_j16363825397897_2_alg».proof.Proof.IdealStep1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a point with j = 15: the inputs as they were, the output block stored, the accumulator advanced. -/
theorem sound_kernel1_live (c : Dev nD) (E : Set ℕ) (i : grid1.Coords)
    (arg2 : Memref sig .tc .vmem S512x512 .f32) (harg2 : arg2.IsWhole) (arg3 : Memref sig .tc .vmem S8192x512 .bf16) (harg3 : arg3.IsWhole)
    (arg4 : Memref sig .tc .vmem S512x512 .bf16) (harg4 : arg4.IsWhole) (arg5 : Memref sig .tc .vmem S512x1 .f32) (harg5 : arg5.IsWhole)
    (arg6 : Memref sig .tc .vmem S512x512 .f32) (harg6 : arg6.IsWhole) (arg7 : Memref sig .tc .vmem S512x512 .f32) (harg7 : arg7.IsWhole)
    (hc2 : cond1_2 i)
    (x0 : Vec F S512x512 .f32) (x1 : Vec F S8192x512 .bf16) (x2 : Vec F S512x512 .bf16) (x3 : Vec F S512x1 .f32) (prev : Vec F S512x512 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare prev
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare (outNew x3 (accNew i x0 x1 prev) x2)
            ∗ owns (c : Thread nD τ) arg7 fullShare (accNew i x0 x1 prev)) -∗ K ⟨⟩))
      ⊢ wp frame (wpE (defs₀ (F := F)) Variants.none c none) E (cc1__gc_kernel i arg2 harg2 arg3 harg3 arg4 harg4 arg5 harg5 arg6 harg6 arg7 harg7) K := by
  simp only [cc1__gc_kernel_eq_skeleton]; unfold cc1__gc_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  by_cases hc0 : cond1_0 i <;> by_cases hc1 : cond1_1 i
  · sl_exec (disch := first | exact hc0 | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      sl_unfold_words
      rw [View.read_writes_eq_canon _ _ _ (fun y => ⟨_, List.mem_cons.mpr (Or.inl rfl), View.mem_set_unit_zero hz2 inb_S512x512_S512x512_0_0 y⟩), View.canon_cons_unit_zero hz2]
      unfold outNew accNew
      simp only [dif_pos hc1, if_pos hc0, View.readAt_eq_ld, readCov_cons_full (S := S512x512) _ hz2, View.ld_unit_zero (S := S512x512) hz2]
      try rfl
    iexists _; isplitr
    swap; · iexact H5
    ipureintro
    sl_unfold_words
    rw [View.read_writes_eq_canon _ _ _ (fun y => ⟨_, List.mem_cons.mpr (Or.inl rfl), View.mem_set_unit_zero hz2 inb_S512x512_S512x512_0_0 y⟩), View.canon_cons_unit_zero hz2]
    unfold accNew
    simp only [dif_pos hc1, if_pos hc0, View.readAt_eq_ld, readCov_cons_full (S := S512x512) _ hz2, View.ld_unit_zero (S := S512x512) hz2]
    try rfl
  · sl_exec (disch := first | exact hc0 | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      sl_unfold_words
      rw [View.read_writes_eq_canon _ _ _ (fun y => ⟨_, List.mem_cons.mpr (Or.inl rfl), View.mem_set_unit_zero hz2 inb_S512x512_S512x512_0_0 y⟩), View.canon_cons_unit_zero hz2]
      unfold outNew accNew
      simp only [dif_neg hc1, if_pos hc0, View.readAt_eq_ld, readCov_cons_full (S := S512x512) _ hz2, View.ld_unit_zero (S := S512x512) hz2]
      try rfl
    iexists _; isplitr
    swap; · iexact H5
    ipureintro
    sl_unfold_words
    rw [View.read_writes_eq_canon _ _ _ (fun y => ⟨_, List.mem_cons.mpr (Or.inl rfl), View.mem_set_unit_zero hz2 inb_S512x512_S512x512_0_0 y⟩), View.canon_cons_unit_zero hz2]
    unfold accNew
    simp only [dif_neg hc1, if_pos hc0, View.readAt_eq_ld, readCov_cons_full (S := S512x512) _ hz2, View.ld_unit_zero (S := S512x512) hz2]
    try rfl
  · sl_exec (disch := first | exact hc0 | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      sl_unfold_words
      rw [View.read_writes_eq_canon _ _ _ (fun y => ⟨_, List.mem_cons.mpr (Or.inl rfl), View.mem_set_unit_zero hz2 inb_S512x512_S512x512_0_0 y⟩), View.canon_cons_unit_zero hz2]
      unfold outNew accNew
      simp only [dif_pos hc1, if_neg hc0, View.readAt_eq_ld, readCov_cons_full (S := S512x512) _ hz2, View.ld_unit_zero (S := S512x512) hz2]
      try rfl
    iexists _; isplitr
    swap; · iexact H5
    ipureintro
    sl_unfold_words
    rw [View.read_writes_eq_canon _ _ _ (fun y => ⟨_, List.mem_cons.mpr (Or.inl rfl), View.mem_set_unit_zero hz2 inb_S512x512_S512x512_0_0 y⟩), View.canon_cons_unit_zero hz2]
    unfold accNew
    simp only [dif_pos hc1, if_neg hc0, View.readAt_eq_ld, readCov_cons_full (S := S512x512) _ hz2, View.ld_unit_zero (S := S512x512) hz2]
    try rfl
  · sl_exec (disch := first | exact hc0 | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      sl_unfold_words
      rw [View.read_writes_eq_canon _ _ _ (fun y => ⟨_, List.mem_cons.mpr (Or.inl rfl), View.mem_set_unit_zero hz2 inb_S512x512_S512x512_0_0 y⟩), View.canon_cons_unit_zero hz2]
      unfold outNew accNew
      simp only [dif_neg hc1, if_neg hc0, View.readAt_eq_ld, readCov_cons_full (S := S512x512) _ hz2, View.ld_unit_zero (S := S512x512) hz2]
      try rfl
    iexists _; isplitr
    swap; · iexact H5
    ipureintro
    sl_unfold_words
    rw [View.read_writes_eq_canon _ _ _ (fun y => ⟨_, List.mem_cons.mpr (Or.inl rfl), View.mem_set_unit_zero hz2 inb_S512x512_S512x512_0_0 y⟩), View.canon_cons_unit_zero hz2]
    unfold accNew
    simp only [dif_neg hc1, if_neg hc0, View.readAt_eq_ld, readCov_cons_full (S := S512x512) _ hz2, View.ld_unit_zero (S := S512x512) hz2]
    try rfl

set_option maxHeartbeats 8000000 in
/-- The body at a point with j < 15: the inputs and the output block as they were, the accumulator advanced. -/
theorem sound_kernel1_idle (c : Dev nD) (E : Set ℕ) (i : grid1.Coords)
    (arg2 : Memref sig .tc .vmem S512x512 .f32) (harg2 : arg2.IsWhole) (arg3 : Memref sig .tc .vmem S8192x512 .bf16) (harg3 : arg3.IsWhole)
    (arg4 : Memref sig .tc .vmem S512x512 .bf16) (harg4 : arg4.IsWhole) (arg5 : Memref sig .tc .vmem S512x1 .f32) (harg5 : arg5.IsWhole)
    (arg6 : Memref sig .tc .vmem S512x512 .f32) (harg6 : arg6.IsWhole) (arg7 : Memref sig .tc .vmem S512x512 .f32) (harg7 : arg7.IsWhole)
    (hc2 : ¬cond1_2 i)
    (x0 : Vec F S512x512 .f32) (x1 : Vec F S8192x512 .bf16) (x2 : Vec F S512x512 .bf16) (x3 : Vec F S512x1 .f32) (xo : Vec F S512x512 .f32) (prev : Vec F S512x512 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xo ∗ owns (c : Thread nD τ) arg7 fullShare prev
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare xo
            ∗ owns (c : Thread nD τ) arg7 fullShare (accNew i x0 x1 prev)) -∗ K ⟨⟩))
      ⊢ wp frame (wpE (defs₀ (F := F)) Variants.none c none) E (cc1__gc_kernel i arg2 harg2 arg3 harg3 arg4 harg4 arg5 harg5 arg6 harg6 arg7 harg7) K := by
  simp only [cc1__gc_kernel_eq_skeleton]; unfold cc1__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  by_cases hc0 : cond1_0 i <;> by_cases hc1 : cond1_1 i
  · sl_exec (disch := first | exact hc0 | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    sl_unfold_words
    rw [View.read_writes_eq_canon _ _ _ (fun y => ⟨_, List.mem_cons.mpr (Or.inl rfl), View.mem_set_unit_zero hz2 inb_S512x512_S512x512_0_0 y⟩), View.canon_cons_unit_zero hz2]
    unfold accNew
    simp only [dif_pos hc1, if_pos hc0, View.readAt_eq_ld, readCov_cons_full (S := S512x512) _ hz2, View.ld_unit_zero (S := S512x512) hz2]
    try rfl
  · sl_exec (disch := first | exact hc0 | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    sl_unfold_words
    rw [View.read_writes_eq_canon _ _ _ (fun y => ⟨_, List.mem_cons.mpr (Or.inl rfl), View.mem_set_unit_zero hz2 inb_S512x512_S512x512_0_0 y⟩), View.canon_cons_unit_zero hz2]
    unfold accNew
    simp only [dif_neg hc1, if_pos hc0, View.readAt_eq_ld, readCov_cons_full (S := S512x512) _ hz2, View.ld_unit_zero (S := S512x512) hz2]
    try rfl
  · sl_exec (disch := first | exact hc0 | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    sl_unfold_words
    rw [View.read_writes_eq_canon _ _ _ (fun y => ⟨_, List.mem_cons.mpr (Or.inl rfl), View.mem_set_unit_zero hz2 inb_S512x512_S512x512_0_0 y⟩), View.canon_cons_unit_zero hz2]
    unfold accNew
    simp only [dif_pos hc1, if_neg hc0, View.readAt_eq_ld, readCov_cons_full (S := S512x512) _ hz2, View.ld_unit_zero (S := S512x512) hz2]
    try rfl
  · sl_exec (disch := first | exact hc0 | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    sl_unfold_words
    rw [View.read_writes_eq_canon _ _ _ (fun y => ⟨_, List.mem_cons.mpr (Or.inl rfl), View.mem_set_unit_zero hz2 inb_S512x512_S512x512_0_0 y⟩), View.canon_cons_unit_zero hz2]
    unfold accNew
    simp only [dif_neg hc1, if_neg hc0, View.readAt_eq_ld, readCov_cons_full (S := S512x512) _ hz2, View.ld_unit_zero (S := S512x512) hz2]
    try rfl

end Cert.KernelIdeal.Hand

end
-- ==== Proof.IdealAcc1.lean ====
/-
  The second kernel region's accumulator followed over the grid: window blocks read off the arrays the region is
  entered with, and accAt, what the scratch accumulator holds after the body at position n of the grid (the fold of
  the body's update over the points of the current grid row up to n).
-/
import proofs.«158732_j16363825397897_2_alg».proof.Proof.Gen.KernelIdeal.Launch
import proofs.«158732_j16363825397897_2_alg».proof.Proof.Gen.KernelIdeal.Skeleton
import proofs.«158732_j16363825397897_2_alg».proof.Proof.Gen.KernelIdeal.Points
import proofs.«158732_j16363825397897_2_alg».proof.Proof.IdealStep1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATION: what the scratch holds after the body at position n. -/
def accAt (c : Dev nD) : (n : ℕ) → n < cfg1.N → Vec F S512x512 .f32
  | 0, hn => accNew (grid1.coords ⟨0, hn⟩) (iblk1 V c 0 ⟨0, hn⟩) (iblk1 V c 1 ⟨0, hn⟩) k1_pay1
  | n + 1, hn => accNew (grid1.coords ⟨n + 1, hn⟩) (iblk1 V c 0 ⟨n + 1, hn⟩) (iblk1 V c 1 ⟨n + 1, hn⟩) (accAt c n (Nat.lt_of_succ_lt hn))

theorem accAt_zero (c : Dev nD) (t : Fin cfg1.N) (hz : t.val = 0) :
    accAt V c t.val t.isLt = accNew (grid1.coords t) (iblk1 V c 0 t) (iblk1 V c 1 t) k1_pay1 := by
  obtain ⟨n, hn⟩ := t
  cases n with
  | zero => rfl
  | succ n => exact absurd hz (Nat.succ_ne_zero n)

theorem accAt_pos (c : Dev nD) (t : Fin cfg1.N) (hz : t.val ≠ 0) :
    accAt V c t.val t.isLt = accNew (grid1.coords t) (iblk1 V c 0 t) (iblk1 V c 1 t) (accAt V c (t.val - 1) (Nat.lt_of_le_of_lt (Nat.sub_le _ _) t.isLt)) := by
  obtain ⟨n, hn⟩ := t
  cases n with
  | zero => exact absurd rfl hz
  | succ n => rfl

end Cert.KernelIdeal.Hand

end
-- ==== Proof.IdealRegion1.lean ====
/-
  The second kernel region as a pipeline: its proof data. The accumulator the body keeps in its scratch buffer is
  followed point by point (accAt: after point n it holds the fold of the body's update over the points of the
  current grid row up to n), the region's invariant holds the scratch at that value between points, and the output
  block after the body at a point with j = 15 is the projection of that accumulator.
-/
import proofs.«158732_j16363825397897_2_alg».proof.Proof.Gen.KernelIdeal.Launch
import proofs.«158732_j16363825397897_2_alg».proof.Proof.Gen.KernelIdeal.Skeleton
import proofs.«158732_j16363825397897_2_alg».proof.Proof.Gen.KernelIdeal.Points
import proofs.«158732_j16363825397897_2_alg».proof.Proof.IdealBody1
import proofs.«158732_j16363825397897_2_alg».proof.Proof.IdealAcc1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The branch conditions in closed form over the grid: j = 0 at the points ≡ 0 (mod 16), j = 15 at the points ≡ 15. -/
theorem hcond1_0 : ∀ t : Fin cfg1.N, cond1_0 (grid1.coords t) ↔ t.val % 16 = 0 :=
  (by decide +kernel : ∀ t : Fin grid1.N, cond1_0 (grid1.coords t) ↔ t.val % 16 = 0)
theorem hcond1_2 : ∀ t : Fin cfg1.N, cond1_2 (grid1.coords t) ↔ t.val % 16 = 15 :=
  (by decide +kernel : ∀ t : Fin grid1.N, cond1_2 (grid1.coords t) ↔ t.val % 16 = 15)

/-- The inputs are never idle; the output is idle, and not written back, exactly at the points with j < 15. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem idleAt1_4 : ∀ t : Fin cfg1.N, ¬cond1_2 (grid1.coords t) → cfg1.idle 4 (grid1.coords t) = true := by decide +kernel
theorem noFlush1_4 : ∀ t : Fin cfg1.N, ¬cond1_2 (grid1.coords t) → (cfg1.win 4).flush t = false := by decide +kernel
theorem liveAt1_4 : ∀ t : Fin cfg1.N, cond1_2 (grid1.coords t) → cfg1.idle 4 (grid1.coords t) = false := by decide +kernel

/-- Each window's current staging memref at point t, as the pipeline passes it, and its wholeness. -/
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .f32 := win1_4.stage (cfg1.slots t 4)
abbrev hs1_4 (t : Fin cfg1.N) : (ms1_4 t).IsWhole := hstage1_4 ((cfg1.slots t 4).cast nbuf1_4)
/-- The scratch accumulator: a whole scoped buffer of the kernel's own. -/
abbrev scM : Memref sig .tc .vmem S512x512 .f32 := Memref.whole cc1_scratch0

/-- The other kernel's staging buffers, each whole at some contents, with the scratch's assertion S at the end:
    the scoped buffers that are no staging buffer of this pipeline. -/
def restChain (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- The class invariant with the scratch as a memref owned at some contents. -/
theorem PhiA1_eq (c : Dev nD) :
    (Pipeline.ΦA spec1 c : sProp 𝕄)
      = iprop(restChain c (iprop(∃ d, owns (c : Thread nD τ) scM fullShare d)) ∗ (∃ r, prngReg c r)) := by
  unfold Pipeline.ΦA restChain; rw [scopedRest1_eq]; simp only [scM, owns_whole]; try rfl

/-- The region invariant before position n: before the first point the class's (the scratch at anything);
    afterwards the scratch at what the point before left in it. -/
def PhiS (c : Dev nD) : (n : ℕ) → n ≤ cfg1.N → sProp 𝕄
  | 0, _ => Pipeline.ΦA spec1 c
  | n + 1, hn => iprop(restChain c (owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restChain c (owns (c : Thread nD τ) scM fullShare (accAt V c n hn)) ∗ (∃ r, prngReg c r)) := rfl

theorem PhiS_pos (c : Dev nD) (n : ℕ) (h : n ≤ cfg1.N) (hz : n ≠ 0) :
    PhiS V c n h = iprop(restChain c (owns (c : Thread nD τ) scM fullShare (accAt V c (n - 1) (by omega))) ∗ (∃ r, prngReg c r)) := by
  cases n with
  | zero => exact absurd rfl hz
  | succ n => rfl

/-- The proof data of the second pipeline on core c: the arrays as the region finds them; after the body each
    input's buffer at its block, the output's at the projection of the accumulator; the invariant carrying the
    accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outNew (iblk1 V c 3 t) (accAt V c t.val t.isLt) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = outNew (iblk1 V c 3 t) (accAt V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the invariant hands the body the scratch at what
    the point before left (at anything at the first point, where the body resets it) and takes it back at this
    point's value; at j = 15 the output block is stored, elsewhere it is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  by_cases h2 : cond1_2 (grid1.coords t)
  · rw [show (dat1 V c).leavesExact 4 t = owns (c : Thread nD τ) (ms1_4 t) fullShare ((dat1 V c).after 4 t) from by
        unfold Dat.leavesExact; rw [liveAt1_4 t h2], after1_4]
    by_cases hz : t.val = 0
    · exfalso
      have := (hcond1_2 t).mp h2
      omega
    · rw [PhiS_castSucc V c t, PhiS_pos V c _ _ hz, accAt_pos V c t hz]
      unfold restChain
      iintro ⟨⟨⟨R0, R1, R2, R3, R4, R5, R6, R7, HS⟩, Hg⟩, Ho, ⟨%d0, H0⟩, ⟨%d1, H1⟩, ⟨%d2, H2⟩, ⟨%d3, H3⟩, ⟨%d4, H4⟩⟩
      iapply (sound_kernel1_live c Set.univ (grid1.coords t) _ _ _ _ _ _ _ _ _ _ _ _ h2 (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [R0 R1 R2 R3 R4 R5 R6 R7 HS Hg]
      · isplitr [Hg]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      isplitl [H2]; · iexact H2
      isplitl [H3]; · iexact H3
      iexact H4
  · rw [Dat.leavesExact_idle (dat1 V c) 4 t (idleAt1_4 t h2) (noFlush1_4 t h2)]
    by_cases hz : t.val = 0
    · rw [PhiS_castSucc V c t, PhiS_zero V c _ _ hz, PhiA1_eq, accAt_zero V c t hz]
      unfold restChain
      iintro ⟨⟨⟨R0, R1, R2, R3, R4, R5, R6, R7, ⟨%ds, HS⟩⟩, Hg⟩, Ho, ⟨%d0, H0⟩, ⟨%d1, H1⟩, ⟨%d2, H2⟩, ⟨%d3, H3⟩, ⟨%d4, H4⟩⟩
      rw [accNew_reset (grid1.coords t) ((hcond1_0 t).mpr (by rw [hz])) (iblk1 V c 0 t) (iblk1 V c 1 t) k1_pay1 ds]
      iapply (sound_kernel1_idle c Set.univ (grid1.coords t) _ _ _ _ _ _ _ _ _ _ _ _ h2 (iblk1 V c 0 t) (iblk1 V c 1 t) (iblk1 V c 2 t) (iblk1 V c 3 t) _ ds _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [R0 R1 R2 R3 R4 R5 R6 R7 HS Hg]
      · isplitr [Hg]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz, accAt_pos V c t hz]
      unfold restChain
      iintro ⟨⟨⟨R0, R1, R2, R3, R4, R5, R6, R7, HS⟩, Hg⟩, Ho, ⟨%d0, H0⟩, ⟨%d1, H1⟩, ⟨%d2, H2⟩, ⟨%d3, H3⟩, ⟨%d4, H4⟩⟩
      iapply (sound_kernel1_idle c Set.univ (grid1.coords t) _ _ _ _ _ _ _ _ _ _ _ _ h2 (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [R0 R1 R2 R3 R4 R5 R6 R7 HS Hg]
      · isplitr [Hg]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's value is forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega), PhiA1_eq]
  unfold restChain
  iintro ⟨⟨R0, R1, R2, R3, R4, R5, R6, R7, HS⟩, Hg⟩
  isplitr [Hg]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexists _; iexact HS
  iexact Hg

end Cert.KernelIdeal.Hand

end
-- ==== Proof.IdealRun.lean ====
/-
  The whole program as a run: the first kernel region, the host's conversion of the weights, the second kernel
  region, from the launch memory to the return. The contents of the TensorCore's buffers at each boundary are a
  fold from the launch memory: a region's arrays at what its write-backs leave, a host stretch's results at its
  operations' values, everything else as before. Every weakly fair execution terminates without a fault in a state
  whose unscoped buffers hold the last boundary's contents; no item writes an argument array.
-/
import proofs.«158732_j16363825397897_2_alg».proof.Proof.Gen.KernelIdeal.Launch
import proofs.«158732_j16363825397897_2_alg».proof.Proof.Gen.KernelIdeal.Skeleton
import proofs.«158732_j16363825397897_2_alg».proof.Proof.Gen.KernelIdeal.Points
import proofs.«158732_j16363825397897_2_alg».proof.Proof.IdealRegion0
import proofs.«158732_j16363825397897_2_alg».proof.Proof.IdealRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (the first region's entry). -/
abbrev W0 : Dev nD → Valuation τ sig (Elt F) := fun c b => (s₀ m ρ).mem ((c : Dev nD), b)
abbrev VA : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (VA m ρ) c).arrAt w cfg0.N
theorem W1_arr (c : Dev nD) (w : Fin cfg0.W) :
    W1 m ρ c (Proc.devRef .tc (Pipeline.arrRef spec0 w)) = (dat0 (VA m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VA' : (c : Dev nD) → (b : Ref sig .tc) → Buf (Elt F) ((c : Thread nD τ).loc b) := fun c b => W1 m ρ c b
theorem hF0 (c : Dev nD) (w : Fin cfg0.W) : (dat0 (VA m ρ) c).arrAt w cfg0.N = VA' m ρ c (Pipeline.arrRef spec0 w) :=
  (W1_arr m ρ c w).symm
theorem hrest0 (c : Dev nD) : ∀ b, b ∉ Finset.univ.image (Pipeline.arrRef spec0) → VA' m ρ c b = VA m ρ c b :=
  fun b hb => W1_of_ne m ρ c b fun w e => hb (Finset.mem_image.mpr ⟨w, Finset.mem_univ _, e⟩)

/-- After the host's conversion of the weights (the second region's entry). -/
abbrev W2 : Dev nD → Valuation τ sig (Elt F) := fun c => StableHlo.after hostOps1 (W1 m ρ c)
abbrev VB : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (VB m ρ) c).arrAt w cfg1.N
theorem W3_arr (c : Dev nD) (w : Fin cfg1.W) :
    W3 m ρ c (Proc.devRef .tc (Pipeline.arrRef spec1 w)) = (dat1 (VB m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev VB' : (c : Dev nD) → (b : Ref sig .tc) → Buf (Elt F) ((c : Thread nD τ).loc b) := fun c b => W3 m ρ c b
theorem hF1 (c : Dev nD) (w : Fin cfg1.W) : (dat1 (VB m ρ) c).arrAt w cfg1.N = VB' m ρ c (Pipeline.arrRef spec1 w) :=
  (W3_arr m ρ c w).symm
theorem hrest1 (c : Dev nD) : ∀ b, b ∉ Finset.univ.image (Pipeline.arrRef spec1) → VB' m ρ c b = VB m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (VB m ρ) c).arrAt_in 0 rfl _).trans (A_eq1 (VB m ρ) c 0))
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (VA m ρ) c).arrAt_in 0 rfl _).trans (A_eq0 (VA m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 1).trans (((dat0 (VA m ρ) c).arrAt_in 1 rfl _).trans (A_eq0 (VA m ρ) c 1))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (VA m ρ) c
  | ⟨1, _⟩ => fun c => dat1 (VB m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

theorem HIN0 (c : Dev nD) : Pipeline.ΦA spec0 c ⊢ (pdats m ρ 0 c).Φ 0 := by
  rw [show (pdats m ρ 0 c).Φ 0 = Pipeline.ΦA spec0 c from rfl]
theorem HOUT0 (c : Dev nD) : (pdats m ρ 0 c).Φ (Fin.last _) ⊢ Pipeline.ΦA spec0 c := by
  rw [show (pdats m ρ 0 c).Φ (Fin.last _) = Pipeline.ΦA spec0 c from rfl]
theorem HIN1 (c : Dev nD) : Pipeline.ΦA spec1 c ⊢ (pdats m ρ 1 c).Φ 0 := hin1 (VB m ρ) c
theorem HOUT1 (c : Dev nD) : (pdats m ρ 1 c).Φ (Fin.last _) ⊢ Pipeline.ΦA spec1 c := hout1 (VB m ρ) c

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VA m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) (Val := Elt F) spec0 c) : sProp 𝕄) ⊢ Pipeline.ΦA spec0 c := by
      unfold Pipeline.ΦA
      iintro ⟨Hp, -, Hr⟩
      isplitl [Hr]; · iexact Hr
      iexact Hp
    exact h.trans (HIN0 m ρ c)
  hout c := by
    rw [Pipeline.ownSems0_none]
    have h : Pipeline.ΦA spec0 c ⊢ (iprop((∃ r, prngReg c r) ∗ emp
        ∗ Pipeline.scopedRest (Ix := Unit) (Name := ℕ) (U := UR sig nD τ) (Lvl := ℕ) (Val := Elt F) spec0 c) : sProp 𝕄) := by
      unfold Pipeline.ΦA
      iintro ⟨Hr, Hp⟩
      isplitl [Hp]; · iexact Hp
      isplitr; · iempintro
      iexact Hr
    exact (HOUT0 m ρ c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VA m ρ c) (VA' m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VB m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) spec1 c) : sProp 𝕄) ⊢ Pipeline.ΦA spec1 c := by
      unfold Pipeline.ΦA
      iintro ⟨Hp, -, Hr⟩
      isplitl [Hr]; · iexact Hr
      iexact Hp
    exact h.trans (HIN1 m ρ c)
  hout c := by
    rw [Pipeline.ownSems0_none]
    have h : Pipeline.ΦA spec1 c ⊢ (iprop((∃ r, prngReg c r) ∗ emp
        ∗ Pipeline.scopedRest (Ix := Unit) (Name := ℕ) (U := UR sig nD τ) (Lvl := ℕ) (Val := Elt F) spec1 c) : sProp 𝕄) := by
      unfold Pipeline.ΦA
      iintro ⟨Hr, Hp⟩
      isplitl [Hp]; · iexact Hp
      isplitr; · iempintro
      iexact Hr
    exact (HOUT1 m ρ c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VB m ρ c) (VB' m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of the program terminates without a
    fault, and every final state has each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- THE RESULT: the result array ends at what the second pipeline's write-backs leave in it. -/
theorem run_result : θ_run defs (onTc (τ := τ) (main (F := F))) ⟨m, fun _ => 0, ρ⟩ (fun r => ∀ c : Dev nD,
      r.2.mem ((c.tc : Thread nD τ).loc main_v2) = (dat1 (VB m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (W3_arr m ρ c 4),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Hand

end
-- ==== Proof.ERealLib.lean ====
/-
  Small facts about the extended reals as float values, used on both sides of the certificate:

    · the coercion ℝ → EReal commutes with finite sums;
    · the entry of the identity matrix the programs build (the unsigned reading of the one-bit
      comparison of the row word with the column word) is the Kronecker delta, for coordinates
      below 8192, where a coordinate and its 32-bit word determine each other;
    · the f32 patterns of 0.0 and 1.0 denote 0 and 1;
    · for a positive real x, 1 / √x computed in the extended reals is the real (√x)⁻¹.
-/
import Idealize.ShloMosaic.PureOps.Ideal.Laws
import Idealize.ShloMosaic.Lib.ValueIdx

noncomputable section

open scoped BigOperators

namespace Cert.ERealLib

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Two coordinates below 8192 have the same 32-bit word exactly when they are equal. -/
theorem ofNat_eq_iff (r c : Fin 8192) : BitVec.ofNat 32 r.val = BitVec.ofNat 32 c.val ↔ r = c := by
  constructor
  · intro h
    have e := congrArg BitVec.toNat h
    rw [BitVec.toNat_ofNat, BitVec.toNat_ofNat] at e
    apply Fin.ext
    have := r.isLt
    have := c.isLt
    omega
  · rintro rfl
    rfl

/-- The identity matrix's entry at (r, c): 1 on the diagonal, 0 off it. -/
theorem eye_entry (r c : Fin 8192) :
    FloatOps.uitofp (F := Ideal) .f32
        (IntOp.cmpi .eq (IntOp.addi (BitVec.ofNat 32 r.val) 0#32) (BitVec.ofNat 32 c.val))
      = (((if r = c then 1 else 0 : ℝ)) : EReal) := by
  have h0 : IntOp.addi (BitVec.ofNat 32 r.val) 0#32 = BitVec.ofNat 32 r.val := by
    show BitVec.ofNat 32 r.val + 0#32 = _
    exact BitVec.add_zero _
  rw [h0]
  show (((IntOp.cmpi .eq (BitVec.ofNat 32 r.val) (BitVec.ofNat 32 c.val)).toNat : ℝ) : EReal) = _
  by_cases h : r = c
  · subst h
    simp [IntOp.cmpi]
  · have hne : ¬ BitVec.ofNat 32 r.val = BitVec.ofNat 32 c.val := fun e => h ((ofNat_eq_iff r c).1 e)
    simp [IntOp.cmpi, hne, h]

/-- The f32 pattern of 0.0 denotes 0. -/
theorem zero_f32 : Ideal.ofBits .f32 0x00000000#32 = 0 := Ideal.ofBits_zero_f32

/-- The f32 pattern of 1.0 denotes 1. -/
theorem one_f32 : Ideal.ofBits .f32 0x3F800000#32 = 1 := by
  simp [Ideal.ofBits, Ideal.ieee, -EReal.coe_mul]
  norm_num

/-- For a positive real x, 1 / √x in the extended reals is the real (√x)⁻¹. -/
theorem inv_sqrt_of_pos {x : ℝ} (hx : 0 < x) :
    Ideal.div (1 : EReal) (Ideal.sqrt (x : EReal)) = (((Real.sqrt x)⁻¹ : ℝ) : EReal) := by
  have hs : 0 < Real.sqrt x := Real.sqrt_pos.2 hx
  have hne : ((Real.sqrt x : ℝ) : EReal) ≠ 0 := by exact_mod_cast hs.ne'
  rw [Ideal.sqrt_coe, if_neg (not_lt.2 hx.le), Ideal.div, if_neg hne, one_mul, ← EReal.coe_inv]

end Cert.ERealLib

end
-- ==== Proof.IdealPay0.lean ====
/-
  The first kernel region's two stored blocks read entry by entry, over the extended reals.

  The body holds a block x0 of 256 whole rows of the adjacency array and the block x1 of the same
  256 rows of the feature array. When every entry of x0 in row p is (the coercion of) a real
  a' p c, and the row's degree (Σ_c a' p c) + 1 is positive, the column block it stores holds at
  row p the real 1 / √((Σ_c a' p c) + 1): the lane sum is the finite sum over the row, adding the
  constant 1.0 adds the real 1, and the inverse square root of a positive real is the real inverse
  of its square root. The feature block it stores holds at (p, k) the entry x1 (p, k) times that
  row's entry of the column: the column is spread along the lanes, and the change of float format
  before the store is the identity on extended reals.
-/
import proofs.«158732_j16363825397897_2_alg».proof.Proof.IdealRegion0
import proofs.«158732_j16363825397897_2_alg».proof.Proof.ERealLib
import Idealize.ShloMosaic.Lib.ValueLayout
import Idealize.ShloMosaic.PureOps.Ideal.Laws

noncomputable section

open scoped BigOperators

namespace Cert.KernelIdeal.Arrays0

open Cert.KernelIdeal Cert.KernelIdeal.Gen Cert.KernelIdeal.Hand
open Idealize.ShloMosaic Idealize.ShloMosaic.ValueIdx

/-- The zero offsets of a whole-block rectangle, as the constant function. -/
theorem hz : (![0, 0] : Fin 2 → ℕ) = fun _ => 0 :=
  funext fun a => by match a with | ⟨0, _⟩ => rfl | ⟨1, _⟩ => rfl

/-! ## The keepdims column: a vector as a one-column matrix, and that column spread along rows -/

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The row sum -/

/-- The index the lane reduction inserts over row p at lane k is (p, k). -/
theorem lift_row (p : Fin 256) (k : Fin 8192) :
    reduces_S256x8192_S256.lift (ix1 p) k = (ix2 p k : S256x8192.Idx) :=
  funext fun c => Fin.ext (by match c with | ⟨0, _⟩ => rfl | ⟨1, _⟩ => rfl)

/-- The lane sum of a block at row p is the finite sum of the row's entries. -/
theorem rowsum_apply (x0 : FVec Ideal S256x8192 .f32) (hφ : FKind.Formats .f32)
    (hacc : (0x00000000#32 : BitVec 32) = FKind.add.neutral .f32 hφ) (p : Fin 256) :
    multiReduction (F := Ideal) .add [1] S256 x0 0x00000000#32 reduces_S256x8192_S256 hφ hacc (ix1 p)
      = ∑ k : Fin 8192, x0 (ix2 p k) := by
  refine (Ideal.multiReduction_add_single x0 0x00000000#32 reduces_S256x8192_S256 hφ hacc (ix1 p)).trans ?_
  show ∑ k : Fin 8192, x0 (reduces_S256x8192_S256.lift (ix1 p) k) = _
  exact Finset.sum_congr rfl fun k _ => congrArg x0 (lift_row p k)

/-! ## The stored column block -/

/-- The column payload at row p: the inverse square root of the row sum plus one. -/
theorem pay1_apply (x0 : Vec Ideal S256x8192 .f32) (a' : Fin 256 → Fin 8192 → ℝ)
    (hx : ∀ p c', x0 (ix2 p c') = ((a' p c' : ℝ) : EReal)) (p : Fin 256) (u : Fin 1)
    (hpos : 0 < (∑ c', a' p c') + 1) :
    k0_pay1 (F := Ideal) x0 (ix2 p u) = (((Real.sqrt ((∑ c', a' p c') + 1))⁻¹ : ℝ) : EReal) := by
  have hs : shapeCast S256x1 (multiReduction (F := Ideal) .add [1] S256 x0 0x00000000#32 reduces_S256x8192_S256 (.inl rfl) rfl) shapeCasts_S256_S256x1 (ix2 p u)
      = ((∑ c', a' p c' : ℝ) : EReal) :=
    ((shapeCast_a_a1_apply _ _ p u).trans (rowsum_apply x0 _ _ p)).trans
      ((Finset.sum_congr rfl fun k _ => hx p k).trans (Cert.ERealLib.coe_sum _ _).symm)
  unfold k0_pay1
  show Ideal.rsqrt (shapeCast S256x1 (multiReduction (F := Ideal) .add [1] S256 x0 0x00000000#32 reduces_S256x8192_S256 (.inl rfl) rfl) shapeCasts_S256_S256x1 (ix2 p u)
      + Ideal.ofBits .f32 0x3F800000#32) = _
  refine (congrArg (fun z => Ideal.rsqrt (z + Ideal.ofBits .f32 0x3F800000#32)) hs).trans ?_
  show Ideal.rsqrt (((∑ c', a' p c' : ℝ) : EReal) + Ideal.ofBits .f32 0x3F800000#32) = _
  rw [Cert.ERealLib.one_f32, ← EReal.coe_one, ← EReal.coe_add, Ideal.rsqrt_coe, if_neg (not_lt.2 hpos.le), if_neg hpos.ne']

/-- The column block the body stores, at row p. -/
theorem out0_2_apply (x0 : Vec Ideal S256x8192 .f32) (a' : Fin 256 → Fin 8192 → ℝ)
    (hx : ∀ p c', x0 (ix2 p c') = ((a' p c' : ℝ) : EReal)) (p : Fin 256) (u : Fin 1)
    (hpos : 0 < (∑ c', a' p c') + 1) :
    out0_2 (F := Ideal) x0 (ix2 p u) = (((Real.sqrt ((∑ c', a' p c') + 1))⁻¹ : ℝ) : EReal) := by
  unfold out0_2
  rw [View.canon_unit_zero hz, View.ld_unit_zero (S := S256x8192) hz]
  exact pay1_apply x0 a' hx p u hpos

/-! ## The stored feature block -/

/-- The feature payload at (p, k): the feature entry times the row's inverse square root. -/
theorem pay2_apply (x0 : Vec Ideal S256x8192 .f32) (x1 : Vec Ideal S256x512 .f32)
    (a' : Fin 256 → Fin 8192 → ℝ) (h' : Fin 256 → Fin 512 → ℝ)
    (hx : ∀ p c', x0 (ix2 p c') = ((a' p c' : ℝ) : EReal))
    (hy : ∀ p k, x1 (ix2 p k) = ((h' p k : ℝ) : EReal)) (p : Fin 256) (k : Fin 512)
    (hpos : 0 < (∑ c', a' p c') + 1) :
    k0_pay2 (F := Ideal) x0 x1 (ix2 p k)
      = ((h' p k * (Real.sqrt ((∑ c', a' p c') + 1))⁻¹ : ℝ) : EReal) := by
  unfold k0_pay2
  show x1 (ix2 p k) * broadcastTo S256x512 (k0_pay1 (F := Ideal) x0) broadcasts_S256x1_S256x512 (ix2 p k) = _
  rw [broadcastTo_a1_ab_apply, pay1_apply x0 a' hx p 0 hpos, hy, EReal.coe_mul]

/-- The feature block the body stores, at (p, k). -/
theorem out0_3_apply (x0 : Vec Ideal S256x8192 .f32) (x1 : Vec Ideal S256x512 .f32)
    (a' : Fin 256 → Fin 8192 → ℝ) (h' : Fin 256 → Fin 512 → ℝ)
    (hx : ∀ p c', x0 (ix2 p c') = ((a' p c' : ℝ) : EReal))
    (hy : ∀ p k, x1 (ix2 p k) = ((h' p k : ℝ) : EReal)) (p : Fin 256) (k : Fin 512)
    (hpos : 0 < (∑ c', a' p c') + 1) :
    out0_3 (F := Ideal) x0 x1 (ix2 p k)
      = ((h' p k * (Real.sqrt ((∑ c', a' p c') + 1))⁻¹ : ℝ) : EReal) := by
  unfold out0_3
  rw [View.canon_unit_zero hz, View.ld_unit_zero (S := S256x8192) hz, View.ld_unit_zero (S := S256x512) hz]
  exact pay2_apply x0 x1 a' h' hx hy p k hpos

end Cert.KernelIdeal.Arrays0

end
-- ==== Proof.IdealBlocks0.lean ====
/-
  Where the first kernel region's blocks sit in their arrays.

  The grid has 32 points; at point t every one of the four windows is at block (t, 0), and a block
  has 256 rows and all the columns of its array. So the entry (p, c) of a block at point t is the
  entry (256 t + p, c) of the array, and row r of an output array lies in the block of point
  r / 256. Every point writes both output blocks back, so the blocks of the 32 points cover each
  output array.
-/
import proofs.«158732_j16363825397897_2_alg».proof.Proof.IdealRegion0
import Idealize.ShloMosaic.Lib.Pipeline.Value
import Idealize.ShloMosaic.Lib.ValueIdx

noncomputable section

namespace Cert.KernelIdeal.Arrays0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- At point t every window is at block (t, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- A row of a block at a grid point is a row of the array. -/
theorem row_lt (t : Fin cfg0.N) (p : Fin 256) : 256 * t.val + p.val < 8192 := by
  have hN : cfg0.N = 32 := N_0
  have := t.isLt
  have := p.isLt
  omega

/-- The row of the array that row p of the block at point t is. -/
abbrev rowAt (t : Fin cfg0.N) (p : Fin 256) : Fin 8192 := ⟨256 * t.val + p.val, row_lt t p⟩

/-! ## The input blocks read off their arrays -/

/-- Entry (p, c) of the adjacency block at point t is entry (256 t + p, c) of the adjacency array. -/
theorem iblk0_0_apply (c : Dev nD) (t : Fin cfg0.N) (p : Fin 256) (c' : Fin 8192) :
    (iblk0 V c 0 t : Vec F S256x8192 .f32) (ix2 p c')
      = (V c main_arg0 : S8192x8192.Idx → Elt F .f32) (ix2 (rowAt t p) c') := by
  obtain ⟨e0, e1, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 256 + 1 * p.val = 256 * t.val + p.val; rw [e0]; omega
  | ⟨1, _⟩ => show win0_0.index t (1 : Fin 2) * 8192 + 1 * c'.val = c'.val; rw [e1]; omega

/-- Entry (p, k) of the feature block at point t is entry (256 t + p, k) of the feature array. -/
theorem iblk0_1_apply (c : Dev nD) (t : Fin cfg0.N) (p : Fin 256) (k : Fin 512) :
    (iblk0 V c 1 t : Vec F S256x512 .f32) (ix2 p k)
      = (V c main_arg1 : S8192x512.Idx → Elt F .f32) (ix2 (rowAt t p) k) := by
  obtain ⟨-, -, e0, e1, -⟩ := idx_facts0 t
  unfold iblk0
  rw [View.read_apply]
  show V c main_arg1 _ = V c main_arg1 _
  refine congrArg (V c main_arg1) (funext fun a => Fin.ext ?_)
  match a with
  | ⟨0, _⟩ => show win0_1.index t (0 : Fin 2) * 256 + 1 * p.val = 256 * t.val + p.val; rw [e0]; omega
  | ⟨1, _⟩ => show win0_1.index t (1 : Fin 2) * 512 + 1 * k.val = k.val; rw [e1]; omega

/-! ## Where an output block's entries sit -/

/-- Entry (p, u) of the column block at point t sits at (256 t + p, 0) of the column array. -/
theorem emb0_2 (t : Fin cfg0.N) (p : Fin 256) (u : Fin 1) :
    ((cfg0.win 2).blk t).view.emb (ix2 p u) = (ix2 (rowAt t p) (0 : Fin 1) : S8192x1.Idx) := by
  obtain ⟨-, -, -, -, e0, e1, -⟩ := idx_facts0 t
  refine funext fun a => Fin.ext ?_
  match a with
  | ⟨0, _⟩ => show win0_2.index t (0 : Fin 2) * 256 + 1 * p.val = 256 * t.val + p.val; rw [e0]; omega
  | ⟨1, _⟩ => show win0_2.index t (1 : Fin 2) * 1 + 1 * u.val = 0; rw [e1]; omega

/-- Entry (p, k) of the scaled feature block at point t sits at (256 t + p, k) of its array. -/
theorem emb0_3 (t : Fin cfg0.N) (p : Fin 256) (k : Fin 512) :
    ((cfg0.win 3).blk t).view.emb (ix2 p k) = (ix2 (rowAt t p) k : S8192x512.Idx) := by
  obtain ⟨-, -, -, -, -, -, e0, e1⟩ := idx_facts0 t
  refine funext fun a => Fin.ext ?_
  match a with
  | ⟨0, _⟩ => show win0_3.index t (0 : Fin 2) * 256 + 1 * p.val = 256 * t.val + p.val; rw [e0]; omega
  | ⟨1, _⟩ => show win0_3.index t (1 : Fin 2) * 512 + 1 * k.val = k.val; rw [e1]; omega

/-! ## The output blocks cover their arrays -/

/-- An index of the column array is in point t's block iff each coordinate is in the block's range. -/
theorem mem_blk0_2 (t : Fin cfg0.N) (i : S8192x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v0_0).slice (win0_2.rect t)).set ↔ _
  rw [View.set_slice_whole, Rect.mem_set_unit]
  exact Iff.rfl

/-- An index of the scaled feature array is in point t's block iff each coordinate is in the block's range. -/
theorem mem_blk0_3 (t : Fin cfg0.N) (i : S8192x512.Idx) :
    i ∈ ((cfg0.win 3).blk t).view.set ↔ ∀ a : Fin 2, win0_3.index t a * S256x512.size a ≤ (i a).val ∧ (i a).val < win0_3.index t a * S256x512.size a + S256x512.size a := by
  show i ∈ ((View.whole main_v0_1).slice (win0_3.rect t)).set ↔ _
  rw [View.set_slice_whole, Rect.mem_set_unit]
  exact Iff.rfl

/-- Row r of the column array is in the block of point r / 256, which is written back. -/
theorem rows_covered0_2 (i : S8192x1.Idx) :
    ∃ t : Fin cfg0.N, (cfg0.win 2).flush t = true ∧ i ∈ ((cfg0.win 2).blk t).view.set := by
  have hN : cfg0.N = 32 := N_0
  have hi0 : (i 0).val < 8192 := (i 0).isLt
  have hi1 : (i 1).val < 1 := (i 1).isLt
  obtain ⟨t, ht⟩ : ∃ t : Fin cfg0.N, t.val = (i 0).val / 256 := ⟨⟨(i 0).val / 256, by rw [hN]; omega⟩, rfl⟩
  obtain ⟨-, -, -, -, e0, e1, -⟩ := idx_facts0 t
  refine ⟨t, flush0_2 t, ?_⟩
  rw [mem_blk0_2]
  intro a
  match a with
  | ⟨0, _⟩ => show win0_2.index t (0 : Fin 2) * 256 ≤ (i 0).val ∧ (i 0).val < win0_2.index t (0 : Fin 2) * 256 + 256; rw [e0, ht]; omega
  | ⟨1, _⟩ => show win0_2.index t (1 : Fin 2) * 1 ≤ (i 1).val ∧ (i 1).val < win0_2.index t (1 : Fin 2) * 1 + 1; rw [e1]; omega

/-- Row r of the scaled feature array is in the block of point r / 256, which is written back. -/
theorem rows_covered0_3 (i : S8192x512.Idx) :
    ∃ t : Fin cfg0.N, (cfg0.win 3).flush t = true ∧ i ∈ ((cfg0.win 3).blk t).view.set := by
  have hN : cfg0.N = 32 := N_0
  have hi0 : (i 0).val < 8192 := (i 0).isLt
  have hi1 : (i 1).val < 512 := (i 1).isLt
  obtain ⟨t, ht⟩ : ∃ t : Fin cfg0.N, t.val = (i 0).val / 256 := ⟨⟨(i 0).val / 256, by rw [hN]; omega⟩, rfl⟩
  obtain ⟨-, -, -, -, -, -, e0, e1⟩ := idx_facts0 t
  refine ⟨t, flush0_3 t, ?_⟩
  rw [mem_blk0_3]
  intro a
  match a with
  | ⟨0, _⟩ => show win0_3.index t (0 : Fin 2) * 256 ≤ (i 0).val ∧ (i 0).val < win0_3.index t (0 : Fin 2) * 256 + 256; rw [e0, ht]; omega
  | ⟨1, _⟩ => show win0_3.index t (1 : Fin 2) * 512 ≤ (i 1).val ∧ (i 1).val < win0_3.index t (1 : Fin 2) * 512 + 512; rw [e1]; omega

end Cert.KernelIdeal.Arrays0

end
-- ==== Proof.Spec.lean ====
/-
  The graph convolution both programs compute, over the real numbers, for real matrices
  a (8192 × 8192), h (8192 × 512) and w (512 × 512):

    deg r      = (Σ_c a r c) + 1                      the row sum of a + I
    dinv r     = 1 / √(deg r)
    hs r k     = h r k · dinv r                        the features scaled by their row's degree
    agg r k    = (Σ_c a r c · hs c k) + hs r k         (a + I) · hs, the self loop added apart
    out r l    = max (Σ_k (agg r k · dinv r) · w k l) 0

  which is relu((D^{-1/2} (a + I) D^{-1/2} h) w) whenever every deg r is positive.
  The kernel's value and the reference's value are each shown to be the coercion of out
  to the extended reals; this module fixes the common target.
-/
import Mathlib.Analysis.SpecialFunctions.Pow.Real
import Mathlib.Algebra.BigOperators.Fin

noncomputable section

open scoped BigOperators

namespace Cert.GraphConvSpec

/-- Row degree of a + I. -/
def deg (a : Fin 8192 → Fin 8192 → ℝ) (r : Fin 8192) : ℝ := (∑ c, a r c) + 1

/-- The inverse square root of the degree. -/
def dinv (a : Fin 8192 → Fin 8192 → ℝ) (r : Fin 8192) : ℝ := (Real.sqrt (deg a r))⁻¹

/-- The features, each row scaled by its inverse square-root degree. -/
def hs (a : Fin 8192 → Fin 8192 → ℝ) (h : Fin 8192 → Fin 512 → ℝ) (r : Fin 8192) (k : Fin 512) : ℝ :=
  h r k * dinv a r

/-- (a + I) · hs, the identity's contribution added after the sum. -/
def agg (a : Fin 8192 → Fin 8192 → ℝ) (h : Fin 8192 → Fin 512 → ℝ) (r : Fin 8192) (k : Fin 512) : ℝ :=
  (∑ c, a r c * hs a h c k) + hs a h r k

/-- The layer's output: the aggregate scaled by the row's inverse square-root degree, projected by w, clamped at 0. -/
def out (a : Fin 8192 → Fin 8192 → ℝ) (h : Fin 8192 → Fin 512 → ℝ) (w : Fin 512 → Fin 512 → ℝ)
    (r : Fin 8192) (l : Fin 512) : ℝ :=
  max (∑ k, (agg a h r k * dinv a r) * w k l) 0

end Cert.GraphConvSpec

end
-- ==== Proof.IdealArrays0.lean ====
/-
  What the first kernel region leaves in its two output arrays, as whole-array functions.

  Let a be a real 8192 × 8192 matrix and h a real 8192 × 512 matrix, let the adjacency array hold
  (the coercions of) a's entries and the feature array h's when the region is entered, and let
  every row degree deg a r = (Σ_c a r c) + 1 be positive. Then after the region the column array
  holds at row r the real dinv a r = 1 / √(deg a r), and the scaled feature array holds at (r, k)
  the real hs a h r k = h r k · dinv a r.

  Each grid point writes back its 256 rows, computed from the same 256 rows of the inputs, so what
  point t writes is the block at t of the whole-array function; the 32 blocks cover the arrays.
-/
import proofs.«158732_j16363825397897_2_alg».proof.Proof.IdealPay0
import proofs.«158732_j16363825397897_2_alg».proof.Proof.IdealBlocks0
import proofs.«158732_j16363825397897_2_alg».proof.Proof.Spec

noncomputable section

open scoped BigOperators

namespace Cert.KernelIdeal.Arrays0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The column array after the region: the inverse square root of each row's degree. -/
abbrev dinvArr (a : Fin 8192 → Fin 8192 → ℝ) : S8192x1.Idx → EReal :=
  fun i => ((Cert.GraphConvSpec.dinv a (i 0) : ℝ) : EReal)

/-- The scaled feature array after the region: each feature row times its row's inverse square-root degree. -/
abbrev hsArr (a : Fin 8192 → Fin 8192 → ℝ) (h : Fin 8192 → Fin 512 → ℝ) : S8192x512.Idx → EReal :=
  fun i => ((Cert.GraphConvSpec.hs a h (i 0) (i 1) : ℝ) : EReal)

/-- What point t writes back to the column array is block t of the inverse square-root degrees. -/
theorem flushed0_2_eq (c : Dev nD) (a : Fin 8192 → Fin 8192 → ℝ)
    (hA : ∀ r c', (V c main_arg0 : S8192x8192.Idx → EReal) (ix2 r c') = ((a r c' : ℝ) : EReal))
    (hdeg : ∀ r, 0 < Cert.GraphConvSpec.deg a r) (t : Fin cfg0.N) :
    (dat0 V c).flushed 2 t = ((cfg0.win 2).blk t).view.read (Elt Ideal) (dinvArr a) := by
  show (cfg0.win 2).cut (grid0.coords t) ((dat0 V c).after 2 t) = _
  rw [after0_2]
  funext y
  obtain ⟨p, u, rfl⟩ : ∃ (p : Fin 256) (u : Fin 1), y = ix2 p u := ⟨y 0, y 1, eq_ix2 y⟩
  show out0_2 (F := Ideal) (iblk0 V c 0 t) (ix2 p u) = dinvArr a (((cfg0.win 2).blk t).view.emb (ix2 p u))
  rw [emb0_2 t p u]
  exact out0_2_apply (iblk0 V c 0 t) (fun p c' => a (rowAt t p) c')
    (fun p c' => (iblk0_0_apply V c t p c').trans (hA (rowAt t p) c')) p u (hdeg (rowAt t p))

/-- The column array ends holding the inverse square-root degrees. -/
theorem final0_2 (c : Dev nD) (a : Fin 8192 → Fin 8192 → ℝ)
    (hA : ∀ r c', (V c main_arg0 : S8192x8192.Idx → EReal) (ix2 r c') = ((a r c' : ℝ) : EReal))
    (hdeg : ∀ r, 0 < Cert.GraphConvSpec.deg a r) :
    (dat0 V c).arrAt 2 cfg0.N = fun i => ((Cert.GraphConvSpec.dinv a (i 0) : ℝ) : EReal) :=
  (dat0 V c).arrAt_eq_of_cover 2 _ (fun t _ => flushed0_2_eq V c a hA hdeg t) rows_covered0_2

/-- What point t writes back to the scaled feature array is block t of the scaled features. -/
theorem flushed0_3_eq (c : Dev nD) (a : Fin 8192 → Fin 8192 → ℝ) (h : Fin 8192 → Fin 512 → ℝ)
    (hA : ∀ r c', (V c main_arg0 : S8192x8192.Idx → EReal) (ix2 r c') = ((a r c' : ℝ) : EReal))
    (hH : ∀ r k, (V c main_arg1 : S8192x512.Idx → EReal) (ix2 r k) = ((h r k : ℝ) : EReal))
    (hdeg : ∀ r, 0 < Cert.GraphConvSpec.deg a r) (t : Fin cfg0.N) :
    (dat0 V c).flushed 3 t = ((cfg0.win 3).blk t).view.read (Elt Ideal) (hsArr a h) := by
  show (cfg0.win 3).cut (grid0.coords t) ((dat0 V c).after 3 t) = _
  rw [after0_3]
  funext y
  obtain ⟨p, k, rfl⟩ : ∃ (p : Fin 256) (k : Fin 512), y = ix2 p k := ⟨y 0, y 1, eq_ix2 y⟩
  show out0_3 (F := Ideal) (iblk0 V c 0 t) (iblk0 V c 1 t) (ix2 p k) = hsArr a h (((cfg0.win 3).blk t).view.emb (ix2 p k))
  rw [emb0_3 t p k]
  exact out0_3_apply (iblk0 V c 0 t) (iblk0 V c 1 t) (fun p c' => a (rowAt t p) c') (fun p k => h (rowAt t p) k)
    (fun p c' => (iblk0_0_apply V c t p c').trans (hA (rowAt t p) c'))
    (fun p k => (iblk0_1_apply V c t p k).trans (hH (rowAt t p) k)) p k (hdeg (rowAt t p))

/-- The scaled feature array ends holding each feature row times its row's inverse square-root degree. -/
theorem final0_3 (c : Dev nD) (a : Fin 8192 → Fin 8192 → ℝ) (h : Fin 8192 → Fin 512 → ℝ)
    (hA : ∀ r c', (V c main_arg0 : S8192x8192.Idx → EReal) (ix2 r c') = ((a r c' : ℝ) : EReal))
    (hH : ∀ r k, (V c main_arg1 : S8192x512.Idx → EReal) (ix2 r k) = ((h r k : ℝ) : EReal))
    (hdeg : ∀ r, 0 < Cert.GraphConvSpec.deg a r) :
    (dat0 V c).arrAt 3 cfg0.N = fun i => ((Cert.GraphConvSpec.hs a h (i 0) (i 1) : ℝ) : EReal) :=
  (dat0 V c).arrAt_eq_of_cover 3 _ (fun t _ => flushed0_3_eq V c a h hA hH hdeg t) rows_covered0_3

end Cert.KernelIdeal.Arrays0

end
-- ==== Proof.IdealPoint.lean ====
/-
  The second kernel region's payloads at the extended reals, read at one entry.

  The matrix unit's product into a zero accumulator is, at (p, q), the sum over the contraction index k of
  the left operand at (p, k) times the right at (k, q); a 512 × 1 column spread over the columns reads, at
  (p, l), its entry of row p; the format changes are the identity. With these the block stored at the last
  column point is, at (p, l),

      max (Σ_k (s p k · d p) · w k l) 0

  when the accumulator holds the reals s, the column block the reals d and the weight block the reals w.
-/
import proofs.«158732_j16363825397897_2_alg».proof.Proof.IdealRegion0
import proofs.«158732_j16363825397897_2_alg».proof.Proof.IdealStep1
import proofs.«158732_j16363825397897_2_alg».proof.Proof.ERealLib
import Idealize.ShloMosaic.Lib.ValueIdx
import Idealize.ShloMosaic.Lib.Pipeline.Value
import Idealize.ShloMosaic.PureOps.Ideal.Laws

noncomputable section

open scoped BigOperators

namespace Cert.KernelIdeal.PointValue

open Cert.KernelIdeal Cert.KernelIdeal.Gen Cert.KernelIdeal.Hand
open Idealize.ShloMosaic Idealize.ShloMosaic.ValueIdx Idealize.SL.Sem
open Cert.ERealLib

/-- The kernel's one contraction record: rows × contraction times contraction × columns, all of extent 512. -/
abbrev D : DotDims S512x512 S512x512 S512x512 := dot_S512x512_S512x512_S512x512_1_0_0_1_n_n

theorem lhs0 (i : S512x512.Idx) (q : D.contr.Idx) : (D.lhsIdx i q 0).val = (i 0).val := by
  unfold DotDims.lhsIdx
  rw [dif_neg (show ¬(0 : Fin S512x512.rank) ∈ D.lhsBatch by decide),
    dif_pos (show (0 : Fin S512x512.rank) ∈ D.lhsNonContracting by decide)]
  rfl
theorem lhs1 (i : S512x512.Idx) (q : D.contr.Idx) : (D.lhsIdx i q 1).val = (q ⟨0, by decide⟩).val :=
  D.lhsIdx_val_of_single rfl i q
theorem rhs0 (i : S512x512.Idx) (q : D.contr.Idx) : (D.rhsIdx i q 0).val = (q ⟨0, by decide⟩).val :=
  D.rhsIdx_val_of_single rfl i q
theorem rhs1 (i : S512x512.Idx) (q : D.contr.Idx) : (D.rhsIdx i q 1).val = (i 1).val := by
  unfold DotDims.rhsIdx
  rw [dif_neg (show ¬(1 : Fin S512x512.rank) ∈ D.rhsBatch by decide),
    dif_pos (show (1 : Fin S512x512.rank) ∈ D.rhsNonContracting by decide)]
  rfl

/-- The matrix unit's product into a zero accumulator, at (p, q): the sum over the contraction. -/
theorem matmul_at (L R : FVec Ideal S512x512 .bf16) (p q : Fin 512) :
    matmul (F := Ideal) D none L R (constant (F := Ideal) S512x512 .f32 0x00000000#32) (ix2 p q)
      = ∑ k : Fin 512, (L (ix2 p k) : EReal) * (R (ix2 k q) : EReal) := by
  show FloatOps.matmul D none L R (constant (F := Ideal) S512x512 .f32 0x00000000#32) (ix2 p q) = _
  rw [Ideal.matmul_constant_zero_apply, ← Equiv.sum_comp (ValueIdx.contrEquiv1 D 512 rfl rfl).symm]
  refine Finset.sum_congr rfl fun k _ => ?_
  have hk := ValueIdx.contrEquiv1_symm_val D 512 rfl rfl k
  have el : D.lhsIdx (ix2 p q) ((ValueIdx.contrEquiv1 D 512 rfl rfl).symm k) = ix2 p k :=
    funext fun a => Fin.ext (by
      match a with
      | ⟨0, _⟩ => exact lhs0 _ _
      | ⟨1, _⟩ => exact (lhs1 _ _).trans hk)
  have er : D.rhsIdx (ix2 p q) ((ValueIdx.contrEquiv1 D 512 rfl rfl).symm k) = ix2 k q :=
    funext fun a => Fin.ext (by
      match a with
      | ⟨0, _⟩ => exact (rhs0 _ _).trans hk
      | ⟨1, _⟩ => exact rhs1 _ _)
  rw [el, er]

/-- A 512 × 1 column spread over 512 columns, at (p, l): the column's entry of row p. -/
theorem spread512_at {α : Type} (v : S512x1.Idx → α) (p l : Fin 512) :
    broadcastTo S512x512 v broadcasts_S512x1_S512x512 (ix2 p l) = v (ix2 p 0) :=
  broadcastTo_apply v broadcasts_S512x1_S512x512 (ix2 p l) (ix2 p 0) (fun a => by
    match a with
    | ⟨0, _⟩ => show p.val = if (512 : Nat) = 1 then 0 else p.val; rw [if_neg (by decide)]
    | ⟨1, _⟩ => show 0 = if (1 : Nat) = 1 then 0 else l.val; rw [if_pos rfl])

/-- The coercion ℝ → EReal commutes with max. -/
theorem coe_max (x y : ℝ) : ((max x y : ℝ) : EReal) = max (x : EReal) (y : EReal) :=
  EReal.coe_strictMono.monotone.map_max

/-- The output block stored at the last column point, at (p, l): the accumulator's row p, scaled by the
    column's entry d p, against column l of the weights, clamped at zero. -/
theorem outNew_at (xd : Vec Ideal S512x1 .f32) (acc : Vec Ideal S512x512 .f32) (xw : Vec Ideal S512x512 .bf16)
    (d : Fin 512 → ℝ) (s w : Fin 512 → Fin 512 → ℝ)
    (hd : ∀ p, xd (ix2 p 0) = ((d p : ℝ) : EReal)) (hs : ∀ p k, acc (ix2 p k) = ((s p k : ℝ) : EReal))
    (hw : ∀ k l, xw (ix2 k l) = ((w k l : ℝ) : EReal)) (p l : Fin 512) :
    outNew xd acc xw (ix2 p l) = ((max (∑ k, (s p k * d p) * w k l) 0 : ℝ) : EReal) := by
  unfold outNew
  rw [View.ld_unit_zero hz2, View.ld_unit_zero hz2]
  unfold k1_pay4
  rw [shapeCast_self, shapeCast_self, maximumf_apply, matmul_at, broadcast_apply, Ideal.ofBits_def, zero_f32]
  simp only [truncf_apply, mulf_apply, spread512_at, hs, hd, hw, ← EReal.coe_mul]
  rw [← coe_sum, ← EReal.coe_zero, ← coe_max]

end Cert.KernelIdeal.PointValue

end
-- ==== Proof.IdealPointAcc.lean ====
/-
  The second kernel region's accumulator step at the extended reals, read at one entry.

  At grid point i = (i 0, i 1) the body leaves in the accumulator, at (p, q),

      (0 if i 1 = 0, else what it held) + Σ_k a' p k · g (512 · i 1 + k) q + (g (512 · i 0 + p) q if i 0 = i 1, else 0)

  when the adjacency tile holds the reals a', the scaled feature array the reals g and the accumulator held the
  reals pr. The three branch conditions are comparisons of the grid coordinates' 32-bit words, and a coordinate
  below 16 and its word determine each other; a block loaded at row offset 512 · b reads, at (k, q), the array at
  (512 · b + k, q).
-/
import proofs.«158732_j16363825397897_2_alg».proof.Proof.IdealPoint

noncomputable section

open scoped BigOperators

namespace Cert.KernelIdeal.PointValue

open Cert.KernelIdeal Cert.KernelIdeal.Gen Cert.KernelIdeal.Hand
open Idealize.ShloMosaic Idealize.ShloMosaic.ValueIdx Idealize.SL.Sem
open Cert.ERealLib

/-! ## The accumulator step -/

/-- The zero block the accumulator is reset to. -/
theorem pay1_at (p q : Fin 512) : k1_pay1 (F := Ideal) (ix2 p q) = 0 := by
  unfold k1_pay1
  rw [shapeCast_self, broadcast_apply]
  exact zero_f32

/-- The product step: what the accumulator held, plus the tile's row p against the feature block's column q. -/
theorem pay2_at (v3 : Vec Ideal S512x512 .f32) (v8 : Vec Ideal S512x512 .bf16) (v11 : Vec Ideal S512x512 .f32)
    (p q : Fin 512) :
    k1_pay2 v3 v8 v11 (ix2 p q) = v11 (ix2 p q) + ∑ k : Fin 512, (v3 (ix2 p k) : EReal) * (v8 (ix2 k q) : EReal) := by
  unfold k1_pay2
  rw [shapeCast_self, shapeCast_self, addf_apply, matmul_at]
  simp only [truncf_apply]

/-- The diagonal step: what the accumulator held, plus the feature block itself. -/
theorem pay3_at (v25 : Vec Ideal S512x512 .bf16) (v28 : Vec Ideal S512x512 .f32) (p q : Fin 512) :
    k1_pay3 v25 v28 (ix2 p q) = v28 (ix2 p q) + (v25 (ix2 p q) : EReal) := by
  unfold k1_pay3
  rw [shapeCast_self, shapeCast_self, addf_apply, extf_apply]

/-- A 512 × 512 block of the 8192 × 512 feature array, loaded at the offsets off, read at (p, q): the array at
    (off 0 + p, off 1 + q). -/
theorem ld_block_at (xh : Vec Ideal S8192x512 .bf16) (off : Fin 2 → Nat)
    (inb : ∀ a, off a + S512x512.size a ≤ S8192x512.size a) (p q : Fin 512) (r : Fin 8192) (c : Fin 512)
    (hr : r.val = off 0 + p.val) (hc : c.val = off 1 + q.val) :
    View.ld xh (Rect.unit (s := S8192x512) off S512x512.size inb) (ix2 p q) = xh (ix2 r c) := by
  show xh ((Rect.unit (s := S8192x512) off S512x512.size inb).idx (ix2 p q)) = xh (ix2 r c)
  refine congrArg xh (funext fun a => Fin.ext ?_)
  match a with
  | ⟨0, _⟩ =>
    show off 0 + 1 * p.val = r.val
    omega
  | ⟨1, _⟩ =>
    show off 1 + 1 * q.val = c.val
    omega

/-- Row k of block b of the feature array. -/
def rowOf (b : Fin 16) (k : Fin 512) : Fin 8192 :=
  ⟨512 * b.val + k.val, by have := b.isLt; have := k.isLt; omega⟩

theorem rowOf_val (b : Fin 16) (k : Fin 512) : (rowOf b k).val = 512 * b.val + k.val := rfl

/-- The flag a branch tests (the comparison's bit widened, compared with zero) is the comparison's bit. -/
theorem flag_iff (b : BitVec 1) : Scalar.cmpi .ne (Scalar.extui b) 0#32 = 1#1 ↔ b = 1#1 := by
  revert b
  decide

/-- Two grid coordinates have the same 32-bit word exactly when they are equal. -/
theorem word16_eq_iff {a b : Nat} (ha : a < 16) (hb : b < 16) : BitVec.ofNat 32 a = BitVec.ofNat 32 b ↔ a = b := by
  constructor
  · intro h
    have e := congrArg BitVec.toNat h
    rw [BitVec.toNat_ofNat, BitVec.toNat_ofNat] at e
    omega
  · rintro rfl
    rfl

/-- The reset branch is taken at column coordinate 0. -/
theorem cond1_0_iff (i : grid1.Coords) : cond1_0 i ↔ (i 1).val = 0 := by
  have h1 : (i 1).val < 16 := (i 1).isLt
  show Scalar.cmpi .ne (Scalar.extui (Scalar.cmpi .eq (BitVec.ofNat 32 (i 1).val) 0#32)) 0#32 = 1#1 ↔ _
  rw [flag_iff]
  show IntOp.cmpi .eq (BitVec.ofNat 32 (i 1).val) (BitVec.ofNat 32 0) = 1#1 ↔ _
  rw [IntOp.cmpi_eq]
  exact word16_eq_iff h1 (by omega)

/-- The diagonal branch is taken where the two grid coordinates agree. -/
theorem cond1_1_iff (i : grid1.Coords) : cond1_1 i ↔ (i 0).val = (i 1).val := by
  have h0 : (i 0).val < 16 := (i 0).isLt
  have h1 : (i 1).val < 16 := (i 1).isLt
  show Scalar.cmpi .ne (Scalar.extui (Scalar.cmpi .eq (BitVec.ofNat 32 (i 0).val) (BitVec.ofNat 32 (i 1).val))) 0#32 = 1#1 ↔ _
  rw [flag_iff]
  show IntOp.cmpi .eq (BitVec.ofNat 32 (i 0).val) (BitVec.ofNat 32 (i 1).val) = 1#1 ↔ _
  rw [IntOp.cmpi_eq]
  exact word16_eq_iff h0 h1

/-- The output branch is taken at column coordinate 15. -/
theorem cond1_2_iff (i : grid1.Coords) : cond1_2 i ↔ (i 1).val = 15 := by
  have h1 : (i 1).val < 16 := (i 1).isLt
  show Scalar.cmpi .ne (Scalar.extui (Scalar.cmpi .eq (BitVec.ofNat 32 (i 1).val) 15#32)) 0#32 = 1#1 ↔ _
  rw [flag_iff]
  show IntOp.cmpi .eq (BitVec.ofNat 32 (i 1).val) (BitVec.ofNat 32 15) = 1#1 ↔ _
  rw [IntOp.cmpi_eq]
  exact word16_eq_iff h1 (by omega)

/-- The accumulator after the body at grid point i, at (p, q): what it held (zero at column coordinate 0), plus
    row p of the adjacency tile against column q of rows 512 (i 1) … of the scaled features, plus, on the
    diagonal, row 512 (i 0) + p of the scaled features itself. -/
theorem accNew_at (i : grid1.Coords) (xa : Vec Ideal S512x512 .f32) (xh : Vec Ideal S8192x512 .bf16)
    (prev : Vec Ideal S512x512 .f32) (a' : Fin 512 → Fin 512 → ℝ) (g : Fin 8192 → Fin 512 → ℝ)
    (pr : Fin 512 → Fin 512 → ℝ) (ha : ∀ p k, xa (ix2 p k) = ((a' p k : ℝ) : EReal))
    (hg : ∀ r q, xh (ix2 r q) = ((g r q : ℝ) : EReal)) (hp : ∀ p q, prev (ix2 p q) = ((pr p q : ℝ) : EReal))
    (p q : Fin 512) :
    accNew i xa xh prev (ix2 p q)
      = (((if (i 1).val = 0 then 0 else pr p q) + (∑ k : Fin 512, a' p k * g (rowOf (i 1) k) q)
          + (if (i 0).val = (i 1).val then g (rowOf (i 0) p) q else 0) : ℝ) : EReal) := by
  have hstep : k1_pay2 (View.ld xa rW)
        (View.ld xh (Rect.unit (s := S8192x512) (k1_off1 i) S512x512.size (k1_off1_inb i)))
        (if cond1_0 i then k1_pay1 (F := Ideal) else prev) (ix2 p q)
      = (((if (i 1).val = 0 then 0 else pr p q) + ∑ k : Fin 512, a' p k * g (rowOf (i 1) k) q : ℝ) : EReal) := by
    have hld : ∀ k : Fin 512,
        View.ld xh (Rect.unit (s := S8192x512) (k1_off1 i) S512x512.size (k1_off1_inb i)) (ix2 k q)
          = ((g (rowOf (i 1) k) q : ℝ) : EReal) := fun k => by
      rw [ld_block_at xh (k1_off1 i) (k1_off1_inb i) k q (rowOf (i 1) k) q (by rw [k1_off1_eq]; rfl)
        (by rw [k1_off1_eq]; show q.val = 0 + q.val; omega), hg]
    rw [pay2_at, View.ld_unit_zero hz2]
    simp only [hld, ha, ← EReal.coe_mul]
    rw [← coe_sum]
    by_cases h0 : cond1_0 i
    · rw [if_pos h0, if_pos ((cond1_0_iff i).1 h0), pay1_at, EReal.coe_add, EReal.coe_zero]
    · rw [if_neg h0, if_neg (fun e => h0 ((cond1_0_iff i).2 e)), hp, EReal.coe_add]
  unfold accNew
  by_cases h1 : cond1_1 i
  · rw [dif_pos h1, pay3_at, hstep,
      ld_block_at xh (k1_off2 i) (k1_off2_inb i h1) p q (rowOf (i 0) p) q (by rw [k1_off2_eq]; rfl)
        (by rw [k1_off2_eq]; show q.val = 0 + q.val; omega),
      hg, if_pos ((cond1_1_iff i).1 h1), ← EReal.coe_add]
  · rw [dif_neg h1, hstep, if_neg (fun e => h1 ((cond1_1_iff i).2 e)), add_zero]

end Cert.KernelIdeal.PointValue

end
-- ==== Proof.BlockSum.lean ====
/-
  Two facts about sums taken a block at a time.

  A sum over 8192 indices taken sixteen blocks of 512 at a time: if e j k is the index 512 · j + k, then
  Σ_c f c = Σ_j Σ_k f (e j k).

  An accumulator swept over the steps j = 0, 1, …: reset at step 0, it gains t j at step j and a one-off
  term u at step i. After step j it holds Σ_{j' ≤ j} t j', plus u if i ≤ j; after step 15 of a sweep whose
  one-off step is below 16 it holds Σ_{j < 16} t j + u.
-/
import Mathlib.Analysis.SpecialFunctions.Pow.Real
import Mathlib.Algebra.BigOperators.Fin

open scoped BigOperators

namespace Cert.GraphAlg

/-- The sum over all 8192 indices is the double sum over the 16 blocks and the 512 places of a block. -/
theorem sum_blocks {M : Type*} [AddCommMonoid M] (e : Fin 16 → Fin 512 → Fin 8192)
    (he : ∀ j k, (e j k).val = 512 * j.val + k.val) (f : Fin 8192 → M) :
    ∑ c, f c = ∑ j, ∑ k, f (e j k) := by
  have h : ∀ j k, e j k = (finProdFinEquiv (m := 16) (n := 512)) (j, k) := fun j k => Fin.ext (by
    rw [he]
    show 512 * j.val + k.val = k.val + 512 * j.val
    omega)
  simp only [h]
  rw [← Fintype.sum_prod_type' (f := fun j k => f ((finProdFinEquiv (m := 16) (n := 512)) (j, k)))]
  exact ((finProdFinEquiv (m := 16) (n := 512)).sum_comp f).symm

/-- An accumulator that is reset at step 0, gains t j at every step j and gains u once, at step i, holds
    after step j the partial sum of t up to j, plus u if step i has passed. -/
theorem acc_closed (t : ℕ → ℝ) (u : ℝ) (i : ℕ) (s : ℕ → ℝ)
    (hs : ∀ j, s j = (if j = 0 then 0 else s (j - 1)) + t j + (if i = j then u else 0)) (j : ℕ) :
    s j = (∑ j' ∈ Finset.range (j + 1), t j') + (if i ≤ j then u else 0) := by
  induction j with
  | zero =>
    rw [hs 0, if_pos rfl, Finset.sum_range_one, zero_add]
    by_cases h : i = 0
    · rw [if_pos h, if_pos (by omega)]
    · rw [if_neg h, if_neg (by omega)]
  | succ n ih =>
    rw [hs (n + 1), if_neg (Nat.succ_ne_zero n), Nat.add_sub_cancel, ih, Finset.sum_range_succ _ (n + 1)]
    by_cases h1 : i ≤ n
    · rw [if_pos h1, if_neg (by omega), if_pos (by omega)]
      ring
    · by_cases h2 : i = n + 1
      · rw [if_neg h1, if_pos h2, if_pos (by omega)]
        ring
      · rw [if_neg h1, if_neg h2, if_neg (by omega)]
        ring

/-- After the sixteenth step (j = 15) of a row whose diagonal step i is below 16: the whole sum, plus u. -/
theorem acc_final (t : ℕ → ℝ) (u : ℝ) (i : ℕ) (hi : i < 16) (s : ℕ → ℝ)
    (hs : ∀ j, s j = (if j = 0 then 0 else s (j - 1)) + t j + (if i = j then u else 0)) :
    s 15 = (∑ j : Fin 16, t j.val) + u := by
  rw [acc_closed t u i s hs 15, if_pos (by omega), Finset.sum_range]

end Cert.GraphAlg
-- ==== Proof.IdealBlocks1.lean ====
/-
  The second kernel region's window blocks, read at one entry off the arrays the region is entered with.

  Point t of the 16 × 16 grid is (i, j) = (t / 16, t % 16). The adjacency window's block at t is the tile
  (i, j): its entry (p, k) is the array's entry (512 i + p, 512 j + k). The scaled-feature and the weight
  windows hold their whole arrays at every point. The column window's block at t is rows 512 i … 512 i + 511
  of the inverse-square-root column. A block's coordinate is always block index × block size + the
  coordinate inside the block; the block indices are decided once over the 256 points.
-/
import proofs.«158732_j16363825397897_2_alg».proof.Proof.IdealAcc1
import proofs.«158732_j16363825397897_2_alg».proof.Proof.IdealPointAcc
import proofs.«158732_j16363825397897_2_alg».proof.Proof.BlockSum
import Idealize.ShloMosaic.Lib.Pipeline.Value

set_option maxRecDepth 16384

noncomputable section

open scoped BigOperators

namespace Cert.KernelIdeal.PointValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open Cert.ERealLib

/-- The second region's index maps and grid coordinates, decided over its 256 points: point t is (t / 16, t % 16);
    the adjacency window's block index is the point's two coordinates, the column's and the result's (t / 16, 0),
    the two whole-array windows' (0, 0). -/
theorem idx_facts1 : ∀ t : Fin cfg1.N,
    win1_0.index t (0 : Fin 2) = t.val / 16 ∧ win1_0.index t (1 : Fin 2) = t.val % 16
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 16 ∧ win1_3.index t (1 : Fin 2) = 0
    ∧ win1_4.index t (0 : Fin 2) = t.val / 16 ∧ win1_4.index t (1 : Fin 2) = 0
    ∧ (grid1.coords t 0).val = t.val / 16 ∧ (grid1.coords t 1).val = t.val % 16 :=
  (by decide +kernel : ∀ t : Fin grid1.N, _)

variable (V : (c : Dev nD) → (b : Ref sig .tc) → Buf (Elt Ideal) ((c : Thread nD τ).loc b))

/-- The adjacency tile at point t = (i, j), at (p, k): the array at (512 i + p, 512 j + k). -/
theorem iblk1_0_at (c : Dev nD) (t : Fin cfg1.N) (p k : Fin 512) :
    iblk1 V c 0 t (ix2 p k)
      = (V c main_arg0 : S8192x8192.Idx → EReal) (ix2 (rowOf (grid1.coords t 0) p) (rowOf (grid1.coords t 1) k)) := by
  obtain ⟨e00, e01, -, -, -, -, -, -, -, -, g0, g1⟩ := idx_facts1 t
  show (V c main_arg0 : S8192x8192.Idx → EReal) (((cfg1.win 0).blk t).view.emb (ix2 p k)) = _
  refine congrArg _ (funext fun a => Fin.ext ?_)
  match a with
  | ⟨0, _⟩ =>
    show win1_0.index t (0 : Fin 2) * 512 + 1 * p.val = 512 * (grid1.coords t 0).val + p.val
    omega
  | ⟨1, _⟩ =>
    show win1_0.index t (1 : Fin 2) * 512 + 1 * k.val = 512 * (grid1.coords t 1).val + k.val
    omega

/-- The scaled feature window is the whole array at every point. -/
theorem iblk1_1_at (c : Dev nD) (t : Fin cfg1.N) (r : Fin 8192) (q : Fin 512) :
    iblk1 V c 1 t (ix2 r q) = (V c main_v0_1 : S8192x512.Idx → EReal) (ix2 r q) := by
  obtain ⟨-, -, e10, e11, -, -, -, -, -, -, -, -⟩ := idx_facts1 t
  show (V c main_v0_1 : S8192x512.Idx → EReal) (((cfg1.win 1).blk t).view.emb (ix2 r q)) = _
  refine congrArg _ (funext fun a => Fin.ext ?_)
  match a with
  | ⟨0, _⟩ =>
    show win1_1.index t (0 : Fin 2) * 8192 + 1 * r.val = r.val
    omega
  | ⟨1, _⟩ =>
    show win1_1.index t (1 : Fin 2) * 512 + 1 * q.val = q.val
    omega

/-- The weight window is the whole array at every point. -/
theorem iblk1_2_at (c : Dev nD) (t : Fin cfg1.N) (k l : Fin 512) :
    iblk1 V c 2 t (ix2 k l) = (V c main_v1 : S512x512.Idx → EReal) (ix2 k l) := by
  obtain ⟨-, -, -, -, e20, e21, -, -, -, -, -, -⟩ := idx_facts1 t
  show (V c main_v1 : S512x512.Idx → EReal) (((cfg1.win 2).blk t).view.emb (ix2 k l)) = _
  refine congrArg _ (funext fun a => Fin.ext ?_)
  match a with
  | ⟨0, _⟩ =>
    show win1_2.index t (0 : Fin 2) * 512 + 1 * k.val = k.val
    omega
  | ⟨1, _⟩ =>
    show win1_2.index t (1 : Fin 2) * 512 + 1 * l.val = l.val
    omega

/-- The inverse-square-root column block at point t = (i, j), at (p, 0): the column at row 512 i + p. -/
theorem iblk1_3_at (c : Dev nD) (t : Fin cfg1.N) (p : Fin 512) :
    iblk1 V c 3 t (ix2 p 0)
      = (V c main_v0_0 : S8192x1.Idx → EReal) (ix2 (rowOf (grid1.coords t 0) p) 0) := by
  obtain ⟨-, -, -, -, -, -, e30, e31, -, -, g0, -⟩ := idx_facts1 t
  show (V c main_v0_0 : S8192x1.Idx → EReal) (((cfg1.win 3).blk t).view.emb (ix2 p 0)) = _
  refine congrArg _ (funext fun a => Fin.ext ?_)
  match a with
  | ⟨0, _⟩ =>
    show win1_3.index t (0 : Fin 2) * 512 + 1 * p.val = 512 * (grid1.coords t 0).val + p.val
    omega
  | ⟨1, _⟩ =>
    show win1_3.index t (1 : Fin 2) * 1 + 1 * 0 = 0
    omega

end Cert.KernelIdeal.PointValue

end
-- ==== Proof.IdealRow1.lean ====
/-
  The second kernel region's accumulator followed along a grid row, in closed form, and the output block
  stored at the row's last point.

  With the adjacency array holding the reals a and the scaled features the reals g, after the body at point
  (i, j) the accumulator holds at (p, q)

      Σ_{j' ≤ j} Σ_k a (512 i + p) (512 j' + k) · g (512 j' + k) q   +   (g (512 i + p) q  if i ≤ j)

  by induction along the grid: the step at j = 0 discards what was there, every step adds its tile's product,
  and the diagonal step adds the self loop once. At j = 15 the sixteen blocks of 512 make the whole sum over the
  8192 columns, so the accumulator is ((a + I) g) at row 512 i + p; the output block is that row scaled by the
  column entry d (512 i + p), multiplied into the weights, clamped at zero.
-/
import proofs.«158732_j16363825397897_2_alg».proof.Proof.IdealBlocks1
import proofs.«158732_j16363825397897_2_alg».proof.Proof.BlockSum

set_option maxRecDepth 16384

noncomputable section

open scoped BigOperators

namespace Cert.KernelIdeal.PointValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open Cert.ERealLib

variable (V : (c : Dev nD) → (b : Ref sig .tc) → Buf (Elt Ideal) ((c : Thread nD τ).loc b))

/-! ## The accumulator over a grid row -/

/-- Row k of block b of an 8192-row array, for any natural b (read modulo 8192; below 16 it is rowOf). -/
def rowN (b : ℕ) (k : Fin 512) : Fin 8192 := ⟨(512 * b + k.val) % 8192, Nat.mod_lt _ (by decide)⟩

theorem rowOf_eq_rowN (b : Fin 16) (k : Fin 512) : rowOf b k = rowN b.val k :=
  Fin.ext (by
    show 512 * b.val + k.val = (512 * b.val + k.val) % 8192
    have := b.isLt
    have := k.isLt
    omega)

/-- What the accumulator holds at (p, q) after the point (i, j) of the grid: the products of the tiles
    (i, 0) … (i, j) of the adjacency array with the matching rows of the scaled features, plus, once the diagonal
    point has passed, row 512 i + p of the scaled features. -/
def accVal (a : Fin 8192 → Fin 8192 → ℝ) (g : Fin 8192 → Fin 512 → ℝ) (p q : Fin 512) (i j : ℕ) : ℝ :=
  (∑ j' ∈ Finset.range (j + 1), ∑ k : Fin 512, a (rowN i p) (rowN j' k) * g (rowN j' k) q)
    + (if i ≤ j then g (rowN i p) q else 0)

/-- The first step of a row: from zero. -/
theorem step_zero (T : ℕ → ℝ) (u : ℝ) (i : ℕ) :
    (0 : ℝ) + T 0 + (if i = 0 then u else 0) = (∑ j' ∈ Finset.range (0 + 1), T j') + (if i ≤ 0 then u else 0) := by
  rw [Finset.sum_range_one, zero_add]
  by_cases h : i = 0
  · rw [if_pos h, if_pos (by omega)]
  · rw [if_neg h, if_neg (by omega)]

/-- A later step of a row: from the partial sum. -/
theorem step_succ (T : ℕ → ℝ) (u : ℝ) (i m : ℕ) :
    ((∑ j' ∈ Finset.range (m + 1), T j') + (if i ≤ m then u else 0)) + T (m + 1) + (if i = m + 1 then u else 0)
      = (∑ j' ∈ Finset.range (m + 1 + 1), T j') + (if i ≤ m + 1 then u else 0) := by
  rw [Finset.sum_range_succ _ (m + 1)]
  by_cases h1 : i ≤ m
  · rw [if_pos h1, if_neg (by omega), if_pos (by omega)]
    ring
  · by_cases h2 : i = m + 1
    · rw [if_neg h1, if_pos h2, if_pos (by omega)]
      ring
    · rw [if_neg h1, if_neg h2, if_neg (by omega)]
      ring

section Closed

variable (c : Dev nD) (a : Fin 8192 → Fin 8192 → ℝ) (g : Fin 8192 → Fin 512 → ℝ)
  (hA : ∀ r c', (V c main_arg0 : S8192x8192.Idx → EReal) (ix2 r c') = ((a r c' : ℝ) : EReal))
  (hG : ∀ r q, (V c main_v0_1 : S8192x512.Idx → EReal) (ix2 r q) = ((g r q : ℝ) : EReal))

include hA hG in
/-- One step of the accumulation, in the reals: the body's update at point t over the previous value pr. -/
theorem accNew_point (t : Fin cfg1.N) (prev : Vec Ideal S512x512 .f32) (pr : Fin 512 → Fin 512 → ℝ)
    (hp : ∀ p q, prev (ix2 p q) = ((pr p q : ℝ) : EReal)) (p q : Fin 512) :
    accNew (grid1.coords t) (iblk1 V c 0 t) (iblk1 V c 1 t) prev (ix2 p q)
      = (((if t.val % 16 = 0 then 0 else pr p q)
          + (∑ k : Fin 512, a (rowN (t.val / 16) p) (rowN (t.val % 16) k) * g (rowN (t.val % 16) k) q)
          + (if t.val / 16 = t.val % 16 then g (rowN (t.val / 16) p) q else 0) : ℝ) : EReal) := by
  obtain ⟨-, -, -, -, -, -, -, -, -, -, g0, g1⟩ := idx_facts1 t
  refine (accNew_at (grid1.coords t) (iblk1 V c 0 t) (iblk1 V c 1 t) prev
    (fun p k => a (rowOf (grid1.coords t 0) p) (rowOf (grid1.coords t 1) k)) g pr
    (fun p k => (iblk1_0_at V c t p k).trans (hA _ _)) (fun r q => (iblk1_1_at V c t r q).trans (hG _ _)) hp p q).trans ?_
  have r0 : ∀ k, rowOf (grid1.coords t 0) k = rowN (t.val / 16) k := fun k =>
    (rowOf_eq_rowN (grid1.coords t 0) k).trans (congrArg (fun b => rowN b k) g0)
  have r1 : ∀ k, rowOf (grid1.coords t 1) k = rowN (t.val % 16) k := fun k =>
    (rowOf_eq_rowN (grid1.coords t 1) k).trans (congrArg (fun b => rowN b k) g1)
  simp only [r0, r1, g0, g1]

include hA hG in
/-- THE ACCUMULATOR IN CLOSED FORM after the body at position n of the grid, at (p, q). -/
theorem accAt_closed_nat : ∀ (n : ℕ) (hn : n < cfg1.N) (p q : Fin 512),
    accAt V c n hn (ix2 p q) = ((accVal a g p q (n / 16) (n % 16) : ℝ) : EReal)
  | 0, hn, p, q => by
    show accNew (grid1.coords ⟨0, hn⟩) (iblk1 V c 0 ⟨0, hn⟩) (iblk1 V c 1 ⟨0, hn⟩) (k1_pay1 (F := Ideal)) (ix2 p q) = _
    rw [accNew_point V c a g hA hG ⟨0, hn⟩ (k1_pay1 (F := Ideal)) (fun _ _ => 0)
      (fun p q => (pay1_at p q).trans EReal.coe_zero.symm) p q]
    refine congrArg _ ?_
    show (if 0 % 16 = 0 then (0 : ℝ) else 0) + _ + _ = _
    rw [if_pos (by decide)]
    exact step_zero (fun j' => ∑ k : Fin 512, a (rowN (0 / 16) p) (rowN j' k) * g (rowN j' k) q) _ (0 / 16)
  | n + 1, hn, p, q => by
    have ih := accAt_closed_nat n (Nat.lt_of_succ_lt hn)
    show accNew (grid1.coords ⟨n + 1, hn⟩) (iblk1 V c 0 ⟨n + 1, hn⟩) (iblk1 V c 1 ⟨n + 1, hn⟩)
      (accAt V c n (Nat.lt_of_succ_lt hn)) (ix2 p q) = _
    rw [accNew_point V c a g hA hG ⟨n + 1, hn⟩ _ (fun p q => accVal a g p q (n / 16) (n % 16)) ih p q]
    refine congrArg _ ?_
    show (if (n + 1) % 16 = 0 then (0 : ℝ) else accVal a g p q (n / 16) (n % 16))
        + (∑ k : Fin 512, a (rowN ((n + 1) / 16) p) (rowN ((n + 1) % 16) k) * g (rowN ((n + 1) % 16) k) q)
        + (if (n + 1) / 16 = (n + 1) % 16 then g (rowN ((n + 1) / 16) p) q else 0)
      = accVal a g p q ((n + 1) / 16) ((n + 1) % 16)
    by_cases hj : (n + 1) % 16 = 0
    · rw [if_pos hj, hj]
      exact step_zero (fun j' => ∑ k : Fin 512, a (rowN ((n + 1) / 16) p) (rowN j' k) * g (rowN j' k) q) _ _
    · obtain ⟨m, hm⟩ : ∃ m, (n + 1) % 16 = m + 1 := ⟨(n + 1) % 16 - 1, by omega⟩
      have e1 : n / 16 = (n + 1) / 16 := by omega
      have e2 : n % 16 = m := by omega
      rw [if_neg hj, e1, e2, hm]
      exact step_succ (fun j' => ∑ k : Fin 512, a (rowN ((n + 1) / 16) p) (rowN j' k) * g (rowN j' k) q) _ _ m

include hA hG in
/-- The same at a grid point t. -/
theorem accAt_closed (t : Fin cfg1.N) (p q : Fin 512) :
    accAt V c t.val t.isLt (ix2 p q) = ((accVal a g p q (t.val / 16) (t.val % 16) : ℝ) : EReal) :=
  accAt_closed_nat V c a g hA hG t.val t.isLt p q

end Closed

/-- After the last point of a row the partial sums are the whole sum over the 8192 columns, and the diagonal
    point has passed. -/
theorem accVal_last (a : Fin 8192 → Fin 8192 → ℝ) (g : Fin 8192 → Fin 512 → ℝ) (p q : Fin 512) (i : Fin 16) :
    accVal a g p q i.val 15 = (∑ c' : Fin 8192, a (rowOf i p) c' * g c' q) + g (rowOf i p) q := by
  show (∑ j' ∈ Finset.range 16, ∑ k : Fin 512, a (rowN i.val p) (rowN j' k) * g (rowN j' k) q)
      + (if i.val ≤ 15 then g (rowN i.val p) q else 0) = _
  rw [if_pos (by have := i.isLt; omega), Finset.sum_range,
    GraphAlg.sum_blocks rowOf (fun _ _ => rfl) (fun c' => a (rowOf i p) c' * g c' q)]
  simp only [rowOf_eq_rowN]

section Last

variable (c : Dev nD) (a : Fin 8192 → Fin 8192 → ℝ) (g : Fin 8192 → Fin 512 → ℝ)
  (hA : ∀ r c', (V c main_arg0 : S8192x8192.Idx → EReal) (ix2 r c') = ((a r c' : ℝ) : EReal))
  (hG : ∀ r q, (V c main_v0_1 : S8192x512.Idx → EReal) (ix2 r q) = ((g r q : ℝ) : EReal))

include hA hG in
/-- THE ACCUMULATOR AT THE END OF A GRID ROW: (a + I) applied to the scaled features, at row 512 i + p. -/
theorem accAt_last (t : Fin cfg1.N) (ht : t.val % 16 = 15) (p q : Fin 512) :
    accAt V c t.val t.isLt (ix2 p q)
      = (((∑ c' : Fin 8192, a (rowOf (grid1.coords t 0) p) c' * g c' q) + g (rowOf (grid1.coords t 0) p) q : ℝ) : EReal) := by
  obtain ⟨-, -, -, -, -, -, -, -, -, -, g0, -⟩ := idx_facts1 t
  rw [accAt_closed V c a g hA hG t p q, ht, ← g0]
  exact congrArg _ (accVal_last a g p q (grid1.coords t 0))

variable (d : Fin 8192 → ℝ) (w : Fin 512 → Fin 512 → ℝ)
  (hD : ∀ r, (V c main_v0_0 : S8192x1.Idx → EReal) (ix2 r 0) = ((d r : ℝ) : EReal))
  (hW : ∀ k l, (V c main_v1 : S512x512.Idx → EReal) (ix2 k l) = ((w k l : ℝ) : EReal))

include hA hG hD hW in
/-- THE OUTPUT BLOCK stored at the last point of grid row i, at (p, l). -/
theorem outNew_last (t : Fin cfg1.N) (ht : t.val % 16 = 15) (p l : Fin 512) :
    outNew (iblk1 V c 3 t) (accAt V c t.val t.isLt) (iblk1 V c 2 t) (ix2 p l)
      = ((max (∑ k : Fin 512, (((∑ c' : Fin 8192, a (rowOf (grid1.coords t 0) p) c' * g c' k)
            + g (rowOf (grid1.coords t 0) p) k) * d (rowOf (grid1.coords t 0) p)) * w k l) 0 : ℝ) : EReal) :=
  outNew_at (iblk1 V c 3 t) (accAt V c t.val t.isLt) (iblk1 V c 2 t)
    (fun p => d (rowOf (grid1.coords t 0) p))
    (fun p k => (∑ c' : Fin 8192, a (rowOf (grid1.coords t 0) p) c' * g c' k) + g (rowOf (grid1.coords t 0) p) k) w
    (fun p => (iblk1_3_at V c t p).trans (hD _)) (fun p k => accAt_last V c a g hA hG t ht p k)
    (fun k l => (iblk1_2_at V c t k l).trans (hW k l)) p l

end Last

end Cert.KernelIdeal.PointValue

end
-- ==== Proof.IdealArray1.lean ====
/-
  The second kernel region's result array, from its blocks.

  The result window is written back at the last point of each grid row, t = 16 i + 15, and its block there is
  rows 512 i … 512 i + 511 of the array, all 512 columns. What the point writes is the output block of the row's
  accumulation, which entry by entry is the function

      resultVal a g d w (r, l) = max (Σ_k ((Σ_c a r c · g c k + g r k) · d r) · w k l) 0

  read at the block's place in the array; and every row r of the array is in the block of the point
  16 (r / 512) + 15. So after the region the array is resultVal.
-/
import proofs.«158732_j16363825397897_2_alg».proof.Proof.IdealRow1
import Idealize.ShloMosaic.Lib.Pipeline.Value

set_option maxRecDepth 16384

noncomputable section

open scoped BigOperators

namespace Cert.KernelIdeal.PointValue

open Cert.KernelIdeal Cert.KernelIdeal.Gen Cert.KernelIdeal.Hand
open Idealize.ShloMosaic Idealize.ShloMosaic.TcCoe Idealize.ShloMosaic.ValueIdx
open Idealize.SL Idealize.SL.RA Idealize.SL.Sem
open Idealize.ShloMosaic.Rounds
open Idealize.ShloMosaic.Pipeline (Dat Cfg Window)
open Cert.ERealLib

variable (V : (c : Dev nD) → (b : Ref sig .tc) → Buf (Elt Ideal) ((c : Thread nD τ).loc b))

/-- The result array's entry at (r, l): row r of (a + I) g, scaled by d r, against column l of w, clamped at 0. -/
def resultVal (a : Fin 8192 → Fin 8192 → ℝ) (g : Fin 8192 → Fin 512 → ℝ) (d : Fin 8192 → ℝ)
    (w : Fin 512 → Fin 512 → ℝ) : S8192x512.Idx → EReal := fun idx =>
  ((max (∑ k : Fin 512, (((∑ c' : Fin 8192, a (idx 0) c' * g c' k) + g (idx 0) k) * d (idx 0)) * w k (idx 1)) 0 : ℝ) : EReal)

/-- An index of the result array is in point t's block iff each coordinate is in the block's range on its axis. -/
theorem mem_blk4 (t : Fin cfg1.N) (i : S8192x512.Idx) :
    i ∈ ((cfg1.win 4).blk t).view.set
      ↔ ∀ a : Fin 2, win1_4.index t a * S512x512.size a ≤ (i a).val
          ∧ (i a).val < win1_4.index t a * S512x512.size a + S512x512.size a := by
  show i ∈ ((View.whole main_v2).slice (win1_4.rect t)).set ↔ _
  rw [View.set_slice_whole, Rect.mem_set_unit]
  exact Iff.rfl

/-- The result window's block at point t = (i, j), at (p, l), sits at (512 i + p, l) of the array. -/
theorem emb4_at (t : Fin cfg1.N) (p l : Fin 512) :
    ((cfg1.win 4).blk t).view.emb (ix2 p l) = (ix2 (rowOf (grid1.coords t 0) p) l : S8192x512.Idx) := by
  obtain ⟨-, -, -, -, -, -, -, -, e40, e41, g0, -⟩ := idx_facts1 t
  refine funext fun a => Fin.ext ?_
  match a with
  | ⟨0, _⟩ =>
    show win1_4.index t (0 : Fin 2) * 512 + 1 * p.val = 512 * (grid1.coords t 0).val + p.val
    omega
  | ⟨1, _⟩ =>
    show win1_4.index t (1 : Fin 2) * 512 + 1 * l.val = l.val
    omega

section Array

variable (c : Dev nD) (a : Fin 8192 → Fin 8192 → ℝ) (g : Fin 8192 → Fin 512 → ℝ) (d : Fin 8192 → ℝ)
  (w : Fin 512 → Fin 512 → ℝ)
  (hA : ∀ r c', (V c main_arg0 : S8192x8192.Idx → EReal) (ix2 r c') = ((a r c' : ℝ) : EReal))
  (hG : ∀ r q, (V c main_v0_1 : S8192x512.Idx → EReal) (ix2 r q) = ((g r q : ℝ) : EReal))
  (hD : ∀ r, (V c main_v0_0 : S8192x1.Idx → EReal) (ix2 r 0) = ((d r : ℝ) : EReal))
  (hW : ∀ k l, (V c main_v1 : S512x512.Idx → EReal) (ix2 k l) = ((w k l : ℝ) : EReal))
  (dat : Dat τ (Elt Ideal) Unit ℕ (UR sig nD τ) ℕ cfg1 c)
  (hafter : ∀ t, dat.after 4 t = outNew (iblk1 V c 3 t) (accAt V c t.val t.isLt) (iblk1 V c 2 t))

include hA hG hD hW hafter in
/-- WHAT A FLUSHING POINT WRITES BACK is its block of the result. -/
theorem flushed4_eq (t : Fin cfg1.N) (hf : (cfg1.win 4).flush t = true) :
    dat.flushed 4 t = ((cfg1.win 4).blk t).view.read (Elt Ideal) (resultVal a g d w) := by
  have ht : t.val % 16 = 15 := (flush1_4 t).1 hf
  show (cfg1.win 4).cut (grid1.coords t) (dat.after 4 t) = _
  rw [hafter]
  funext j
  obtain ⟨p, l, rfl⟩ : ∃ (p : Fin 512) (l : Fin 512), j = ix2 p l := ⟨j 0, j 1, eq_ix2 j⟩
  show outNew (iblk1 V c 3 t) (accAt V c t.val t.isLt) (iblk1 V c 2 t) (ix2 p l)
    = resultVal a g d w (((cfg1.win 4).blk t).view.emb (ix2 p l))
  rw [emb4_at, outNew_last V c a g hA hG d w hD hW t ht p l]
  rfl

include hA hG hD hW hafter in
/-- THE RESULT ARRAY after the second region. -/
theorem arrAt4_eq : dat.arrAt 4 cfg1.N = resultVal a g d w :=
  dat.arrAt_eq_of_cover 4 (resultVal a g d w) (flushed4_eq V c a g d w hA hG hD hW dat hafter) fun i => by
    have hi0 : (i 0).val < 8192 := (i 0).isLt
    have hi1 : (i 1).val < 512 := (i 1).isLt
    have hlt : 16 * ((i 0).val / 512) + 15 < cfg1.N := by
      show 16 * ((i 0).val / 512) + 15 < 256
      omega
    refine ⟨⟨16 * ((i 0).val / 512) + 15, hlt⟩, (flush1_4 _).2 (by show (16 * ((i 0).val / 512) + 15) % 16 = 15; omega), ?_⟩
    obtain ⟨-, -, -, -, -, -, -, -, e40, e41, -, -⟩ := idx_facts1 ⟨16 * ((i 0).val / 512) + 15, hlt⟩
    have e40' : win1_4.index ⟨16 * ((i 0).val / 512) + 15, hlt⟩ (0 : Fin 2) = (i 0).val / 512 := by
      rw [e40]
      show (16 * ((i 0).val / 512) + 15) / 16 = (i 0).val / 512
      omega
    rw [mem_blk4]
    intro b
    match b with
    | ⟨0, _⟩ =>
      show win1_4.index ⟨16 * ((i 0).val / 512) + 15, hlt⟩ (0 : Fin 2) * 512 ≤ (i 0).val
        ∧ (i 0).val < win1_4.index ⟨16 * ((i 0).val / 512) + 15, hlt⟩ (0 : Fin 2) * 512 + 512
      omega
    | ⟨1, _⟩ =>
      show win1_4.index ⟨16 * ((i 0).val / 512) + 15, hlt⟩ (1 : Fin 2) * 512 ≤ (i 1).val
        ∧ (i 1).val < win1_4.index ⟨16 * ((i 0).val / 512) + 15, hlt⟩ (1 : Fin 2) * 512 + 512
      omega

end Array

end Cert.KernelIdeal.PointValue

end
-- ==== Proof.IdealOut1.lean ====
/-
  The second kernel region's result array for the region's own proof data, and what it is in terms of the common
  target: with the scaled features g = hs a h and the column d = dinv a, the entry (r, l) of resultVal is
  out a h w r l.
-/
import proofs.«158732_j16363825397897_2_alg».proof.Proof.IdealRegion1
import proofs.«158732_j16363825397897_2_alg».proof.Proof.IdealArray1
import proofs.«158732_j16363825397897_2_alg».proof.Proof.Spec

set_option maxRecDepth 16384

noncomputable section

open scoped BigOperators

namespace Cert.KernelIdeal.PointValue

open Cert.KernelIdeal Cert.KernelIdeal.Gen Cert.KernelIdeal.Hand
open Idealize.ShloMosaic Idealize.ShloMosaic.TcCoe Idealize.ShloMosaic.ValueIdx
open Idealize.SL Idealize.SL.RA Idealize.SL.Sem
open Idealize.ShloMosaic.Rounds
open Idealize.ShloMosaic.Pipeline (Dat Cfg Window)

/-- THE RESULT ARRAY after the second region, for the region's proof data. -/
theorem final1_4 (V : (c : Dev nD) → (b : Ref sig .tc) → Buf (Elt Ideal) ((c : Thread nD τ).loc b)) (c : Dev nD)
    (a : Fin 8192 → Fin 8192 → ℝ) (g : Fin 8192 → Fin 512 → ℝ) (d : Fin 8192 → ℝ) (w : Fin 512 → Fin 512 → ℝ)
    (hA : ∀ r c', (V c main_arg0 : S8192x8192.Idx → EReal) (ix2 r c') = ((a r c' : ℝ) : EReal))
    (hG : ∀ r q, (V c main_v0_1 : S8192x512.Idx → EReal) (ix2 r q) = ((g r q : ℝ) : EReal))
    (hD : ∀ r, (V c main_v0_0 : S8192x1.Idx → EReal) (ix2 r 0) = ((d r : ℝ) : EReal))
    (hW : ∀ k l, (V c main_v1 : S512x512.Idx → EReal) (ix2 k l) = ((w k l : ℝ) : EReal)) :
    (dat1 V c).arrAt 4 cfg1.N = resultVal a g d w :=
  arrAt4_eq V c a g d w hA hG hD hW (dat1 V c) (after1_4 V c)

/-- resultVal at an index, spelled out. -/
theorem resultVal_apply (a : Fin 8192 → Fin 8192 → ℝ) (g : Fin 8192 → Fin 512 → ℝ) (d : Fin 8192 → ℝ)
    (w : Fin 512 → Fin 512 → ℝ) (idx : S8192x512.Idx) :
    resultVal a g d w idx
      = ((max (∑ k : Fin 512, (((∑ c' : Fin 8192, a (idx 0) c' * g c' k) + g (idx 0) k) * d (idx 0)) * w k (idx 1)) 0 : ℝ) : EReal) :=
  rfl

/-- With the features scaled by the inverse square-root degrees and the column of those, resultVal is the common
    target's output. -/
theorem resultVal_eq_out (a : Fin 8192 → Fin 8192 → ℝ) (h : Fin 8192 → Fin 512 → ℝ) (w : Fin 512 → Fin 512 → ℝ) :
    resultVal a (Cert.GraphConvSpec.hs a h) (Cert.GraphConvSpec.dinv a) w
      = fun idx => ((Cert.GraphConvSpec.out a h w (idx 0) (idx 1) : ℝ) : EReal) :=
  rfl

end Cert.KernelIdeal.PointValue

end
-- ==== Proof.IdealGlue.lean ====
/-
  The kernel's result array as a function of the argument arrays, at the ideal instance. The second region is
  entered with the adjacency array as launched, the scaled features and the inverse-square-root column as the first
  region left them, and the weights as converted by the host (the identity on extended reals); its result array is
  then the graph convolution of the real matrices the arguments denote.
-/
import proofs.«158732_j16363825397897_2_alg».proof.Proof.IdealRun
import proofs.«158732_j16363825397897_2_alg».proof.Proof.IdealArrays0
import proofs.«158732_j16363825397897_2_alg».proof.Proof.IdealOut1
import proofs.«158732_j16363825397897_2_alg».proof.Proof.Spec
import Idealize.ShloMosaic.Lib.ValueIdx
import Idealize.ShloMosaic.Lib.StableHlo.Run

set_option maxRecDepth 16384

noncomputable section

namespace Cert.KernelIdeal.Glue

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The second region finds the adjacency array as launched. -/
theorem VB_main_arg0 (c : Dev nD) : VB m ρ c main_arg0 = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (VA m ρ) c).arrAt_in 0 rfl _).trans (A_eq0 (VA m ρ) c 0))
    _ = m ((c : Thread nD τ).loc main_arg0) := rfl

/-- It finds the column of inverse square roots and the scaled features as the first region's write-backs left them. -/
theorem VB_main_v0_0 (c : Dev nD) : VB m ρ c main_v0_0 = (dat0 (VA m ρ) c).arrAt 2 cfg0.N :=
  calc W2 m ρ c (Proc.devRef .tc main_v0_0)
    _ = W1 m ρ c (Proc.devRef .tc main_v0_0) := StableHlo.after_of_forall_not_mem (b := Proc.devRef .tc main_v0_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := W1_arr m ρ c 2

theorem VB_main_v0_1 (c : Dev nD) : VB m ρ c main_v0_1 = (dat0 (VA m ρ) c).arrAt 3 cfg0.N :=
  calc W2 m ρ c (Proc.devRef .tc main_v0_1)
    _ = W1 m ρ c (Proc.devRef .tc main_v0_1) := StableHlo.after_of_forall_not_mem (b := Proc.devRef .tc main_v0_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := W1_arr m ρ c 3

/-- It finds the weights converted by the host: at the ideal instance the same extended reals. -/
theorem VB_main_v1 (c : Dev nD) (i : S512x512.Idx) :
    (VB m ρ c main_v1 : S512x512.Idx → EReal) i = (m ((c : Thread nD τ).loc main_arg2) : S512x512.Idx → EReal) i := by
  have e : (VB m ρ c main_v1 : S512x512.Idx → EReal) = truncf (F := Ideal) .bf16 (W1 m ρ c (Proc.devRef .tc main_arg2) : S512x512.Idx → EReal) bitsLt_bf16_f32 := by
    show StableHlo.after hostOps1 (W1 m ρ c) (Proc.devRef .tc main_v1) = _
    after_results
  rw [e, W1_of_ne m ρ c main_arg2 (by decide)]
  rfl

open Cert.GraphConvSpec in
/-- THE KERNEL'S VALUE. If the three argument arrays hold the real matrices a, h, w and every row degree of a + I is
    positive, the result array after the run holds the graph convolution of a, h, w. -/
theorem kernel_value (c : Dev nD) (a : Fin 8192 → Fin 8192 → ℝ) (h : Fin 8192 → Fin 512 → ℝ) (w : Fin 512 → Fin 512 → ℝ)
    (hA : ∀ r c', (m ((c : Thread nD τ).loc main_arg0) : S8192x8192.Idx → EReal) (ix2 r c') = ((a r c' : ℝ) : EReal))
    (hH : ∀ r k, (m ((c : Thread nD τ).loc main_arg1) : S8192x512.Idx → EReal) (ix2 r k) = ((h r k : ℝ) : EReal))
    (hW : ∀ k l, (m ((c : Thread nD τ).loc main_arg2) : S512x512.Idx → EReal) (ix2 k l) = ((w k l : ℝ) : EReal))
    (hdeg : ∀ r, 0 < deg a r) :
    (dat1 (VB m ρ) c).arrAt 4 cfg1.N = fun idx => ((out a h w (idx 0) (idx 1) : ℝ) : EReal) := by
  have e := Cert.KernelIdeal.PointValue.final1_4 (VB m ρ) c a (hs a h) (dinv a) w
    (fun r c' => (congrFun (VB_main_arg0 m ρ c) (ix2 r c')).trans (hA r c'))
    (fun r q => (congrFun (VB_main_v0_1 m ρ c) (ix2 r q)).trans
      (congrFun (Cert.KernelIdeal.Arrays0.final0_3 (VA m ρ) c a h hA hH hdeg) (ix2 r q)))
    (fun r => (congrFun (VB_main_v0_0 m ρ c) (ix2 r 0)).trans
      (congrFun (Cert.KernelIdeal.Arrays0.final0_2 (VA m ρ) c a hA hdeg) (ix2 r 0)))
    (fun k l => (VB_main_v1 m ρ c (ix2 k l)).trans (hW k l))
  exact e.trans (Cert.KernelIdeal.PointValue.resultVal_eq_out a h w)

end Cert.KernelIdeal.Glue

end
-- ==== Proof.GraphAlg.lean ====
/-
  The real-number algebra behind the graph convolution, over abstract finite index types.

  With δ the Kronecker delta (δ r c = 1 if r = c, else 0), a row scaling d and any matrices a, h, w:

    Σ_c (a c + δ r c)                         = (Σ_c a c) + 1
    Σ_c ((a c + δ r c) · d r · d c) · x c     = ((Σ_c a c · (x c · d c)) + x r · d r) · d r

  The first is the row degree of a + I. The second says that multiplying the symmetrically
  normalised matrix D (a + I) D into a column x is the same as scaling x by d, applying a, adding
  the scaled self loop, and scaling the row by d once more.
-/
import Mathlib.Analysis.SpecialFunctions.Pow.Real
import Mathlib.Algebra.BigOperators.Fin

open scoped BigOperators

namespace Cert.GraphAlg

variable {R K L : Type*} [Fintype R] [DecidableEq R] [Fintype K]

/-- The row sum of a + I is the row sum of a, plus one. -/
theorem sum_add_delta (a : R → ℝ) (r : R) :
    ∑ c, (a c + (if r = c then (1 : ℝ) else 0)) = (∑ c, a c) + 1 := by
  rw [Finset.sum_add_distrib, Finset.sum_ite_eq, if_pos (Finset.mem_univ r)]

/-- One row of D (a + I) D against a column x. -/
theorem row_law (a d x : R → ℝ) (r : R) :
    ∑ c, ((a c + (if r = c then (1 : ℝ) else 0)) * d r * d c) * x c
      = ((∑ c, a c * (x c * d c)) + x r * d r) * d r := by
  have e : ∀ c, ((a c + (if r = c then (1 : ℝ) else 0)) * d r * d c) * x c
      = (a c * (x c * d c)) * d r + (if r = c then x c * d c * d r else 0) := by
    intro c
    split_ifs <;> ring
  rw [Finset.sum_congr rfl fun c _ => e c, Finset.sum_add_distrib, Finset.sum_ite_eq,
    if_pos (Finset.mem_univ r), ← Finset.sum_mul]
  ring

/-- The projected output: the law above under the sum over the feature axis. -/
theorem out_law (a : R → R → ℝ) (h : R → K → ℝ) (w : K → L → ℝ) (d : R → ℝ) (r : R) (l : L) :
    ∑ k, (∑ c, ((a r c + (if r = c then (1 : ℝ) else 0)) * d r * d c) * h c k) * w k l
      = ∑ k, (((∑ c, a r c * (h c k * d c)) + h r k * d r) * d r) * w k l :=
  Finset.sum_congr rfl fun k _ => by rw [row_law (a r) d (fun c => h c k) r]

end Cert.GraphAlg
-- ==== Proof.RefBridge.lean ====
/-
  The reference program, read at the extended reals, is the graph convolution of the common target.

  When the three argument arrays hold (the coercions of) real matrices a, h, w and every row degree
  deg a r = (Σ_c a r c) + 1 is positive, each stage of the reference is a real array:

    the identity's entry            δ r c                          (1 on the diagonal, 0 off it)
    a + I                           a r c + δ r c
    its row sums                    deg a r
    1 / √(row sum)                  dinv a r                       (deg a r > 0: no corner is met)
    the normalised matrix           (a r c + δ r c) · dinv a r · dinv a c
    its product with h              Σ_c ((a r c + δ r c) · dinv a r · dinv a c) · h c k
    that product's product with w   Σ_k (…) · w k l
    the clamp at zero               max (…) 0

  and the last is out a h w r l by the row law of the real algebra (D (a + I) D applied to a column
  is the column scaled by d, sent through a, the scaled self loop added, the row scaled by d again).
-/
import proofs.«158732_j16363825397897_2_alg».proof.Proof.Gen.ReferenceIdeal.Read
import proofs.«158732_j16363825397897_2_alg».proof.Proof.Spec
import proofs.«158732_j16363825397897_2_alg».proof.Proof.GraphAlg
import proofs.«158732_j16363825397897_2_alg».proof.Proof.ERealLib

noncomputable section

open scoped BigOperators

namespace Cert.RefBridge

open Idealize.ShloMosaic Idealize.ShloMosaic.ValueIdx Idealize.SL.Sem
open Cert.ReferenceIdeal Cert.ReferenceIdeal.Read Cert.GraphConvSpec Cert.ERealLib

/-- The identity matrix's entry. -/
abbrev delta (r c : Fin 8192) : ℝ := if r = c then 1 else 0

/-- The identity the reference builds from two iotas, at (r, c). -/
theorem v5_at (r c : Fin 8192) : val_main_v5 (F := Ideal) (ix2 r c) = ((delta r c : ℝ) : EReal) := by
  rw [val_main_v5_apply, val_main_v4_apply, val_main_v3_apply, val_main_v0_apply, val_main_v2_apply,
    val_main_c_apply, val_main_v1_apply]
  exact eye_entry r c

section Stages

variable (A : (⟨S8192x8192, .f32⟩ : BufTy).Contents (Elt Ideal))
  (H : (⟨S8192x512, .f32⟩ : BufTy).Contents (Elt Ideal))
  (W : (⟨S512x512, .f32⟩ : BufTy).Contents (Elt Ideal))
  (a : Fin 8192 → Fin 8192 → ℝ) (h : Fin 8192 → Fin 512 → ℝ) (w : Fin 512 → Fin 512 → ℝ)
  (hA : ∀ r c, A (ix2 r c) = ((a r c : ℝ) : EReal))
  (hH : ∀ r k, H (ix2 r k) = ((h r k : ℝ) : EReal))
  (hW : ∀ k l, W (ix2 k l) = ((w k l : ℝ) : EReal))
  (hdeg : ∀ r, 0 < deg a r)

include hA in
/-- a + I at (r, c). -/
theorem v6_at (r c : Fin 8192) :
    val_main_v6 (F := Ideal) A (ix2 r c) = ((a r c + delta r c : ℝ) : EReal) := by
  rw [val_main_v6_apply, v5_at, hA, Ideal.addf_def, EReal.coe_add]

include hA in
/-- The row sums of a + I are the degrees. -/
theorem v7_at (r : Fin 8192) : val_main_v7 (F := Ideal) A (ix1 r) = ((deg a r : ℝ) : EReal) := by
  have hidx : ∀ k : Fin 8192, idx_main_v7 (ix1 r) k = ix2 r k := fun k => by
    funext d
    match d with
    | ⟨0, _⟩ => rfl
    | ⟨1, _⟩ => rfl
  rw [val_main_v7_apply, val_main_cst_apply, Ideal.ofBits_def, zero_f32, zero_add]
  simp only [hidx, v6_at A a hA]
  rw [← coe_sum, GraphAlg.sum_add_delta]
  rfl

include hA hdeg in
/-- 1 / √(degree) is the real inverse square root: the degree is positive. -/
theorem v10_at (r : Fin 8192) : val_main_v10 (F := Ideal) A (ix1 r) = ((dinv a r : ℝ) : EReal) := by
  rw [val_main_v10_apply, val_main_v9_apply, val_main_cst_0_apply, val_main_v8_apply, v7_at A a hA,
    Ideal.hostDivf_def, Ideal.hostUnary_sqrt_def, Ideal.ofBits_def, one_f32, inv_sqrt_of_pos (hdeg r)]
  rfl

include hA hdeg in
/-- The normalised matrix D (a + I) D at (r, c). -/
theorem v16_at (r c : Fin 8192) :
    val_main_v16 (F := Ideal) A (ix2 r c) = (((a r c + delta r c) * dinv a r * dinv a c : ℝ) : EReal) := by
  have h12 : idx_main_v11 (idx_main_v12 (ix2 r c)) = ix1 r := by
    funext d
    match d with
    | ⟨0, _⟩ => rfl
  have h15 : idx_main_v14 (idx_main_v15 (ix2 r c)) = ix1 c := by
    funext d
    match d with
    | ⟨0, _⟩ => rfl
  rw [val_main_v16_apply, val_main_v13_apply, val_main_v12_apply, val_main_v11_apply, val_main_v15_apply,
    val_main_v14_apply, h12, h15, v6_at A a hA, v10_at A a hA hdeg, v10_at A a hA hdeg, Ideal.mulf_def,
    Ideal.mulf_def, ← EReal.coe_mul, ← EReal.coe_mul]

include hA hH hdeg in
/-- The normalised matrix times h, at (r, k). -/
theorem v17_at (r : Fin 8192) (k : Fin 512) :
    val_main_v17 (F := Ideal) A H (ix2 r k)
      = ((∑ c, ((a r c + delta r c) * dinv a r * dinv a c) * h c k : ℝ) : EReal) := by
  have hl : ∀ c : Fin 8192, lidx_main_v17 (ix2 r k) c = ix2 r c := fun c => by
    funext d
    match d with
    | ⟨0, _⟩ => rfl
    | ⟨1, _⟩ => rfl
  have hr : ∀ c : Fin 8192, ridx_main_v17 (ix2 r k) c = ix2 c k := fun c => by
    funext d
    match d with
    | ⟨0, _⟩ => rfl
    | ⟨1, _⟩ => rfl
  rw [val_main_v17_apply]
  simp only [hl, hr, v16_at A a hA hdeg, hH, ← EReal.coe_mul]
  rw [← coe_sum]

include hA hH hW hdeg in
/-- … times w, at (r, l). -/
theorem v18_at (r : Fin 8192) (l : Fin 512) :
    val_main_v18 (F := Ideal) A H W (ix2 r l)
      = ((∑ k, (∑ c, ((a r c + delta r c) * dinv a r * dinv a c) * h c k) * w k l : ℝ) : EReal) := by
  have hl : ∀ k : Fin 512, lidx_main_v18 (ix2 r l) k = ix2 r k := fun k => by
    funext d
    match d with
    | ⟨0, _⟩ => rfl
    | ⟨1, _⟩ => rfl
  have hr : ∀ k : Fin 512, ridx_main_v18 (ix2 r l) k = ix2 k l := fun k => by
    funext d
    match d with
    | ⟨0, _⟩ => rfl
    | ⟨1, _⟩ => rfl
  rw [val_main_v18_apply]
  simp only [hl, hr, v17_at A H a h hA hH hdeg, hW, ← EReal.coe_mul]
  rw [← coe_sum]

end Stages

/-- The coercion ℝ → EReal commutes with max. -/
theorem coe_max (x y : ℝ) : ((max x y : ℝ) : EReal) = max (x : EReal) (y : EReal) :=
  EReal.coe_strictMono.monotone.map_max

/-- The reference's result is the coercion of the common target. -/
theorem reference_eq (A : (⟨S8192x8192, .f32⟩ : BufTy).Contents (Elt Ideal))
    (H : (⟨S8192x512, .f32⟩ : BufTy).Contents (Elt Ideal))
    (W : (⟨S512x512, .f32⟩ : BufTy).Contents (Elt Ideal))
    (a : Fin 8192 → Fin 8192 → ℝ) (h : Fin 8192 → Fin 512 → ℝ) (w : Fin 512 → Fin 512 → ℝ)
    (hA : ∀ r c, A (ix2 r c) = ((a r c : ℝ) : EReal))
    (hH : ∀ r k, H (ix2 r k) = ((h r k : ℝ) : EReal))
    (hW : ∀ k l, W (ix2 k l) = ((w k l : ℝ) : EReal))
    (hdeg : ∀ r, 0 < deg a r) :
    val_main_v19 (F := Ideal) A H W = fun i => ((out a h w (i 0) (i 1) : ℝ) : EReal) := by
  funext i
  obtain ⟨r, l, rfl⟩ : ∃ r l, i = ix2 r l := ⟨i 0, i 1, eq_ix2 i⟩
  show _ = ((out a h w r l : ℝ) : EReal)
  rw [val_main_v19_apply, val_main_call0_v0_apply, val_main_call0_cst_apply, Ideal.ofBits_def, zero_f32,
    v18_at A H W a h w hA hH hW hdeg, Ideal.maximumf_def, ← EReal.coe_zero, ← coe_max,
    GraphAlg.out_law a h w (dinv a) r l]
  rfl

end Cert.RefBridge

end
-- ==== Proof.PreBridge.lean ====
/-
  What the precondition gives: the three argument arrays hold real numbers, and every row of
  a + I has a positive sum.

  The precondition is the conjunction of four tests, each an "all" over an array of one-bit words:
  |x| < +∞ at every entry of each of the three arguments, and (Σ_c (a + I) r c) > 0 at every row r.
  On the extended reals |x| = max x (-x) is below +∞ exactly when x is neither infinity, that is
  when x is (the coercion of) a real; the real is x.toReal. With every entry of the first argument
  real, the row sum of a + I is the coercion of (Σ_c a r c) + 1 = deg a r, and the comparison with
  zero in the extended reals is the comparison in the reals.
-/
import proofs.«158732_j16363825397897_2_alg».proof.Proof.Gen.Pre_finite_inputs
import proofs.«158732_j16363825397897_2_alg».proof.Proof.Spec
import proofs.«158732_j16363825397897_2_alg».proof.Proof.GraphAlg
import proofs.«158732_j16363825397897_2_alg».proof.Proof.ERealLib
import Idealize.ShloMosaic.Lib.ReduceAll

noncomputable section

open scoped BigOperators

namespace Cert.PreBridge

open Idealize.ShloMosaic Idealize.ShloMosaic.ValueIdx
open Cert.Pre_finite_inputs Cert.GraphConvSpec Cert.ERealLib

/-- The scalar shape has one index. -/
instance : Subsingleton S_.Idx := ⟨fun a b => funext fun d => d.elim0⟩

/-- The f32 pattern of +∞ denotes ⊤. -/
theorem top_f32 : Ideal.ofBits .f32 0x7F800000#32 = ⊤ := by simp [Ideal.ofBits, Ideal.ieee]

/-- An extended real whose absolute value is below +∞ is the coercion of its real part. -/
theorem real_of_cmp (x : EReal)
    (hx : Ideal.cmp .olt (max x (-x)) (Ideal.ofBits .f32 0x7F800000#32) = 1#1) :
    x = ((x.toReal : ℝ) : EReal) := by
  rw [top_f32] at hx
  induction x using EReal.rec with
  | bot => simp [Ideal.cmp] at hx
  | top => simp [Ideal.cmp] at hx
  | coe y => rw [EReal.toReal_coe]

/-- An extended real that tests above zero is positive. -/
theorem pos_of_cmp_ogt (x : EReal) (e : Ideal.cmp .ogt x 0 = 1#1) : 0 < x := by
  by_contra hn
  have h0 : Ideal.cmp .ogt x 0 = 0#1 := by
    show BitVec.ofBool (decide ((0 : EReal) < x)) = 0#1
    rw [decide_eq_false hn]
    rfl
  rw [h0] at e
  exact absurd e (by decide)

/-- The host's sum over the second axis of an 8192 × 8192 array, read at row r. -/
theorem rowsum_at (X : FVec Ideal S8192x8192 .f32) (init : FVec Ideal S_ .f32) (r : Fin 8192) :
    Host.reduceAdd X init Facts.reducesTo_S8192x8192_S8192_d1 Facts.h_S_ (ix1 r)
      = init (Shape.Idx.first Facts.h_S_) + ∑ c : Fin 8192, X (ix2 r c) := by
  simp only [Host.reduceAdd, Ideal.hostReduceAdd_def]
  rw [Ideal.hostReduceAdd_single Facts.reducesTo_S8192x8192_S8192_d1 (by decide)]
  refine congrArg (_ + ·) (Finset.sum_congr rfl fun k _ => ?_)
  exact congrArg X (funext fun a => Fin.ext (by
    match a with
    | ⟨0, _⟩ => rfl
    | ⟨1, _⟩ => rfl))

/-- A row of a + I whose sum, taken from zero, tests above zero has a positive degree. -/
theorem deg_pos_of_cmp (X : FVec Ideal S8192x8192 .f32) (a : Fin 8192 → Fin 8192 → ℝ) (r : Fin 8192)
    (hX : ∀ c, X (ix2 r c) = ((a r c + (if r = c then 1 else 0) : ℝ) : EReal))
    (z : FVec Ideal S8192 .f32) (hz : z (ix1 r) = 0)
    (e : cmpf .ogt (Host.reduceAdd X (constant S_ .f32 0x00000000#32) Facts.reducesTo_S8192x8192_S8192_d1
      Facts.h_S_) z (ix1 r) = 1#1) :
    0 < deg a r := by
  rw [cmpf_apply, rowsum_at, hz, constant_apply, zero_f32, zero_add] at e
  simp only [hX] at e
  rw [← coe_sum, GraphAlg.sum_add_delta] at e
  have e' : Ideal.cmp .ogt ((((∑ c, a r c) + 1 : ℝ)) : EReal) 0 = 1#1 := e
  exact EReal.coe_pos.1 (pos_of_cmp_ogt _ e')

/-- Under the precondition the arguments are real matrices and every row degree is positive. -/
theorem reals_of_pre (A : FVec Ideal S8192x8192 .f32) (H : FVec Ideal S8192x512 .f32)
    (W : FVec Ideal S512x512 .f32) (hpre : fn (F := Ideal) A H W = fun _ => 1#1) :
    ∃ (a : Fin 8192 → Fin 8192 → ℝ) (h : Fin 8192 → Fin 512 → ℝ) (w : Fin 512 → Fin 512 → ℝ),
      (∀ r c, A (ix2 r c) = ((a r c : ℝ) : EReal)) ∧ (∀ r k, H (ix2 r k) = ((h r k : ℝ) : EReal))
        ∧ (∀ k l, W (ix2 k l) = ((w k l : ℝ) : EReal)) ∧ ∀ r, 0 < deg a r := by
  have h0 := congrFun hpre ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  obtain ⟨a, hA⟩ : ∃ a : Fin 8192 → Fin 8192 → ℝ, ∀ r c, A (ix2 r c) = ((a r c : ℝ) : EReal) :=
    ⟨fun r c => (A (ix2 r c)).toReal, fun r c => real_of_cmp _ (Host.reduce_andi_all _ _ _ _ _ h1 (ix2 r c))⟩
  obtain ⟨h, hH⟩ : ∃ h : Fin 8192 → Fin 512 → ℝ, ∀ r k, H (ix2 r k) = ((h r k : ℝ) : EReal) :=
    ⟨fun r k => (H (ix2 r k)).toReal, fun r k => real_of_cmp _ (Host.reduce_andi_all _ _ _ _ _ h2 (ix2 r k))⟩
  obtain ⟨w, hW⟩ : ∃ w : Fin 512 → Fin 512 → ℝ, ∀ k l, W (ix2 k l) = ((w k l : ℝ) : EReal) :=
    ⟨fun k l => (W (ix2 k l)).toReal, fun k l => real_of_cmp _ (Host.reduce_andi_all _ _ _ _ _ h3 (ix2 k l))⟩
  refine ⟨a, h, w, hA, hH, hW, fun r => ?_⟩
  refine deg_pos_of_cmp _ a r ?_ _ ?_ (Host.reduce_andi_all _ _ _ _ _ h4 (ix1 r))
  · intro c
    rw [EReal.coe_add, ← hA r c, ← eye_entry r c]
    rfl
  · exact zero_f32

end Cert.PreBridge

end
-- ==== Proof.RefOfPre.lean ====
/-
  The two halves together: under the precondition there are real matrices a, h, w that the three
  arguments hold, every row degree of a + I is positive, and the reference's result is the
  coercion of the graph convolution out a h w.
-/
import proofs.«158732_j16363825397897_2_alg».proof.Proof.RefBridge
import proofs.«158732_j16363825397897_2_alg».proof.Proof.PreBridge

noncomputable section

namespace Cert.RefOfPre

open Idealize.ShloMosaic Idealize.ShloMosaic.ValueIdx Cert.GraphConvSpec

/-- Under the precondition the reference computes the common target of some real matrices that the
    arguments hold, with every degree positive. -/
theorem reference_of_pre (A : FVec Ideal Cert.Pre_finite_inputs.S8192x8192 .f32)
    (H : FVec Ideal Cert.Pre_finite_inputs.S8192x512 .f32) (W : FVec Ideal Cert.Pre_finite_inputs.S512x512 .f32)
    (hpre : Cert.Pre_finite_inputs.fn (F := Ideal) A H W = fun _ => 1#1) :
    ∃ (a : Fin 8192 → Fin 8192 → ℝ) (h : Fin 8192 → Fin 512 → ℝ) (w : Fin 512 → Fin 512 → ℝ),
      (∀ r c, A (ix2 r c) = ((a r c : ℝ) : EReal)) ∧ (∀ r k, H (ix2 r k) = ((h r k : ℝ) : EReal))
        ∧ (∀ k l, W (ix2 k l) = ((w k l : ℝ) : EReal)) ∧ (∀ r, 0 < deg a r)
        ∧ Cert.ReferenceIdeal.Read.val_main_v19 (F := Ideal) A H W
            = fun i => ((out a h w (i 0) (i 1) : ℝ) : EReal) := by
  obtain ⟨a, h, w, hA, hH, hW, hdeg⟩ := Cert.PreBridge.reals_of_pre A H W hpre
  exact ⟨a, h, w, hA, hH, hW, hdeg, Cert.RefBridge.reference_eq A H W a h w hA hH hW hdeg⟩

end Cert.RefOfPre

end
-- ==== Proof.lean ====
/-
  The graph-convolution kernel against its reference: relu((D^{-1/2} (A + I) D^{-1/2} H) W) with D the row sums of
  A + I, for A of 8192 × 8192, H of 8192 × 512 and W of 512 × 512, under the precondition that every entry is
  finite and every row sum of A + I is positive (the domain of the reference's 1/sqrt).

  The kernel is two pipelined regions with a host conversion between them. The first computes, per block of 256
  rows, the column dinv = (row sum of A + 1)^{-1/2} and the scaled features Hs = H · dinv (row-wise). The second
  walks a 16 × 16 grid of 512 × 512 adjacency tiles, accumulating A_tile · Hs_rows over the column tiles of one row
  block in a scratch buffer, adding the row block's own Hs at the diagonal tile (the self loop), and at the last
  column tile scaling the accumulated rows by dinv, multiplying by W and clamping at zero.

  On the extended reals every entry is a real number under the precondition, both sides are
  max(Σ_k ((Σ_c a(r,c) · hs(c,k) + hs(r,k)) · dinv(r)) · w(k,l), 0) with hs(c,k) = h(c,k) · dinv(c), and the
  reference's arrangement Σ_c ((a(r,c) + δ(r,c)) · dinv(r) · dinv(c)) · h(c,k) equals it by distributivity in ℝ.
  The frames of the two kernel programs are the run of the three segments (region, host conversion, region); the
  reference's frame is its run with the result dropped; the idealization rewrote nothing.
-/
import proofs.«158732_j16363825397897_2_alg».proof.Defs
import proofs.«158732_j16363825397897_2_alg».proof.Proof.Gen.Kernel
import proofs.«158732_j16363825397897_2_alg».proof.Proof.Gen.KernelIdeal
import proofs.«158732_j16363825397897_2_alg».proof.Proof.Gen.ReferenceIdeal
import proofs.«158732_j16363825397897_2_alg».proof.Proof.Gen.ReferenceIdeal.Run
import proofs.«158732_j16363825397897_2_alg».proof.Proof.Gen.ReferenceIdeal.Read
import proofs.«158732_j16363825397897_2_alg».proof.Proof.Gen.Pre_finite_inputs
import proofs.«158732_j16363825397897_2_alg».proof.Proof.BitsRun
import proofs.«158732_j16363825397897_2_alg».proof.Proof.IdealGlue
import proofs.«158732_j16363825397897_2_alg».proof.Proof.RefOfPre
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the graph convolution of the real matrices their arguments hold. -/
theorem algebraic : Cert.algebraic_KernelIdeal_ReferenceIdeal := by
  intro m ρ m' ρ' hpre hagree
  have hR := fun c : Dev Cert.KernelIdeal.nD =>
    Cert.RefOfPre.reference_of_pre
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (hpre c)
  choose a h w hA hH hW hdeg href using hR
  refine ⟨fun c idx => ((Cert.GraphConvSpec.out (a c) (h c) (w c) (idx 0) (idx 1) : ℝ) : EReal), ?_, ?_⟩
  · exact (θ_run Cert.KernelIdeal.defs _ _).mono
      (fun r hr c => ⟨(hr c).1.trans (Cert.KernelIdeal.Glue.kernel_value m ρ c (a c) (h c) (w c) (hA c) (hH c) (hW c) (hdeg c)), (hr c).2⟩)
      (Cert.KernelIdeal.Hand.run_result (F := Ideal) m ρ)
  · refine (θ_run Cert.ReferenceIdeal.defs _ _).mono (fun r hr c => ⟨?_, (hr c).2⟩)
      (Cert.ReferenceIdeal.Value.run (F := Ideal) m' ρ')
    rw [(hr c).1, Cert.ReferenceIdeal.Read.val_main_v19_eq, (hagree c).1, (hagree c).2.1, (hagree c).2.2]
    exact href c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
